-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1x512x128 : Shape := ⟨3, ![1, 512, 128]⟩
abbrev S1x2048x128 : Shape := ⟨3, ![1, 2048, 128]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S4x2048x1024, .bf16⟩
  | .hbm, ⟨12, _⟩ => ⟨S8192x1024, .bf16⟩
  | .hbm, ⟨13, _⟩ => ⟨S4x2048x1024, .bf16⟩
  | .hbm, ⟨14, _⟩ => ⟨S8192x1024, .bf16⟩
  | .hbm, ⟨15, _⟩ => ⟨S4x2048x1024, .bf16⟩
  | .hbm, ⟨16, _⟩ => ⟨S4x2048x1024, .bf16⟩
  | .hbm, ⟨17, _⟩ => ⟨S8192x1024, .bf16⟩
  | .hbm, ⟨18, _⟩ => ⟨S8192x1024, .f32⟩
  | .hbm, ⟨19, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x512x128, .bf16⟩
  | .local _ .vmem, ⟨16, _⟩ => ⟨S1x512x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x512x128, .bf16⟩
  | .local _ .vmem, ⟨22, _⟩ => ⟨S1x512x128, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 8, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x128_S1x512x64_0_0_64 : ∀ a, (![0, 0, 64] : Fin 3 → Nat) a + S1x512x64.size a ≤ S1x512x128.size a
  inb_S1x2048x128_S1x2048x64_0_0_64 : ∀ a, (![0, 0, 64] : Fin 3 → Nat) a + S1x2048x64.size a ≤ S1x2048x128.size a
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  packedbf16_S1x512x128_S1x512x64_0_0_64 : (Rect.unit (s := S1x512x128) ![0, 0, 64] S1x512x64.size inb_S1x512x128_S1x512x64_0_0_64).PackedRows (EltTy.packing .bf16)
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S4x2048x1024.size a
  hwx3_0 : ∀ i : grid3.Coords, EltTy.bits .bf16 = 32 ∨ (Rect.block (s := S4x2048x1024) S1x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S4x2048x1024.size a
  hwx3_1 : ∀ i : grid3.Coords, EltTy.bits .bf16 = 32 ∨ (Rect.block (s := S4x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S4x2048x1024.size a
  hwx3_2 : ∀ i : grid3.Coords, EltTy.bits .bf16 = 32 ∨ (Rect.block (s := S4x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S4x2048x1024.size a
  hwx3_3 : ∀ i : grid3.Coords, EltTy.bits .bf16 = 32 ∨ (Rect.block (s := S4x2048x1024) S1x512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x1024.size a
  hwx4_2 : ∀ i : grid4.Coords, EltTy.bits .f32 = 32 ∨ (Rect.block (s := S8192x1024) S1024x1024.size (cc4_transform_2 i) (hinb4_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v10) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x16x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x16x2048x2048, .f32⟩
  | .hbm, ⟨17, _⟩ => ⟨S_, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S_, .f32⟩
  | .hbm, ⟨23, _⟩ => ⟨S4x16x2048, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S4x16x2048x1, .f32⟩
  | .hbm, ⟨32, _⟩ => ⟨S4x16x2048x2048, .f32⟩
  | .hbm, ⟨33, _⟩ => ⟨S4x16x2048x2048, .f32⟩
  | .hbm, ⟨34, _⟩ => ⟨S4x16x2048x64, .f32⟩
  | .hbm, ⟨35, _⟩ => ⟨S4x2048x16x64, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KRun.lean ====
/-
  The run of the idealized kernel program, keeping what the frame forgets: every weakly fair execution of @main
  terminates without a fault, and in the final memory EVERY buffer that outlives the kernels' regions holds the
  contents the fold through @main's segments assigns it (`Gen.W11`): host stretches applied in order, and each
  kernel region's arrays at what its write-backs leave. The result array and the argument arrays are read off it.
-/
import proofs.«102316_j51908974739732_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every final state has each buffer that is
    not scoped to a region at the last boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The same run with the buffers that matter named: the result array at the fold's contents, the seven argument
    arrays as launched. -/
theorem run_named : θ_run defs (onTc (τ := τ) (main (F := F))) ⟨m, fun _ => 0, ρ⟩ (fun r => ∀ c : Dev nD,
      r.2.mem ((c.tc : Thread nD τ).loc main_v12) = W11 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v12 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩)
    (run_mem m ρ)

end Cert.KernelIdeal.Val

end
-- ==== Proof.ChainKeep.lean ====
/-
  Buffers that stretches of @main leave alone. The program's memory at each boundary between host stretches and kernel
  regions is a fold through @main; a buffer that a host stretch does not write and that is not one of a region's arrays
  holds, after the stretch or region, what it held before. Each lemma walks one buffer back over the segments that do
  not touch it: an argument array to the launch memory, a projection to the boundary right after it was computed.
-/
import proofs.«102316_j51908974739732_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Nothing between boundary 0 and boundary 1 writes `main_arg3`. -/
theorem keep_main_arg3_1_0 (c : Dev nD) : W1 m ρ c (Proc.devRef .tc main_arg3) = W0 m ρ c (Proc.devRef .tc main_arg3) :=
  (StableHlo.after_of_forall_not_mem (b := Proc.devRef .tc main_arg3) _ _ (List.forall_iff_forall_mem.mp (by
      simp only [hostOps0, List.Forall, StableHlo.reshape_writes, Finset.mem_singleton]
      repeat' apply And.intro
      all_goals exact StableHlo.devRef_ne_of_ne (by decide))))

/-- Nothing between boundary 0 and boundary 3 writes `main_arg4`. -/
theorem keep_main_arg4_3_0 (c : Dev nD) : W3 m ρ c (Proc.devRef .tc main_arg4) = W0 m ρ c (Proc.devRef .tc main_arg4) :=
  ((StableHlo.after_of_forall_not_mem (b := Proc.devRef .tc main_arg4) _ _ (List.forall_iff_forall_mem.mp (by
      simp only [hostOps1, List.Forall, StableHlo.reshape_writes, Finset.mem_singleton]
      repeat' apply And.intro
      all_goals exact StableHlo.devRef_ne_of_ne (by decide)))).trans
    ((W2_of_ne m ρ c main_arg4 (by decide)).trans
    (StableHlo.after_of_forall_not_mem (b := Proc.devRef .tc main_arg4) _ _ (List.forall_iff_forall_mem.mp (by
      simp only [hostOps0, List.Forall, StableHlo.reshape_writes, Finset.mem_singleton]
      repeat' apply And.intro
      all_goals exact StableHlo.devRef_ne_of_ne (by decide))))))

/-- Nothing between boundary 1 and boundary 3 writes `main_v1`. -/
theorem keep_main_v1_3_1 (c : Dev nD) : W3 m ρ c (Proc.devRef .tc main_v1) = W1 m ρ c (Proc.devRef .tc main_v1) :=
  ((StableHlo.after_of_forall_not_mem (b := Proc.devRef .tc main_v1) _ _ (List.forall_iff_forall_mem.mp (by
      simp only [hostOps1, List.Forall, StableHlo.reshape_writes, Finset.mem_singleton]
      repeat' apply And.intro
      all_goals exact StableHlo.devRef_ne_of_ne (by decide)))).trans
    (W2_of_ne m ρ c main_v1 (by decide)))

/-- Nothing between boundary 0 and boundary 5 writes `main_arg5`. -/
theorem keep_main_arg5_5_0 (c : Dev nD) : W5 m ρ c (Proc.devRef .tc main_arg5) = W0 m ρ c (Proc.devRef .tc main_arg5) :=
  ((StableHlo.after_of_forall_not_mem (b := Proc.devRef .tc main_arg5) _ _ (List.forall_iff_forall_mem.mp (by
      simp only [hostOps2, List.Forall, StableHlo.reshape_writes, Finset.mem_singleton]
      repeat' apply And.intro
      all_goals exact StableHlo.devRef_ne_of_ne (by decide)))).trans
    ((W4_of_ne m ρ c main_arg5 (by decide)).trans
    ((StableHlo.after_of_forall_not_mem (b := Proc.devRef .tc main_arg5) _ _ (List.forall_iff_forall_mem.mp (by
      simp only [hostOps1, List.Forall, StableHlo.reshape_writes, Finset.mem_singleton]
      repeat' apply And.intro
      all_goals exact StableHlo.devRef_ne_of_ne (by decide)))).trans
    ((W2_of_ne m ρ c main_arg5 (by decide)).trans
    (StableHlo.after_of_forall_not_mem (b := Proc.devRef .tc main_arg5) _ _ (List.forall_iff_forall_mem.mp (by
      simp only [hostOps0, List.Forall, StableHlo.reshape_writes, Finset.mem_singleton]
      repeat' apply And.intro
      all_goals exact StableHlo.devRef_ne_of_ne (by decide))))))))

/-- Nothing between boundary 1 and boundary 5 writes `main_v2`. -/
theorem keep_main_v2_5_1 (c : Dev nD) : W5 m ρ c (Proc.devRef .tc main_v2) = W1 m ρ c (Proc.devRef .tc main_v2) :=
  ((StableHlo.after_of_forall_not_mem (b := Proc.devRef .tc main_v2) _ _ (List.forall_iff_forall_mem.mp (by
      simp only [hostOps2, List.Forall, StableHlo.reshape_writes, Finset.mem_singleton]
      repeat' apply And.intro
      all_goals exact StableHlo.devRef_ne_of_ne (by decide)))).trans
    ((W4_of_ne m ρ c main_v2 (by decide)).trans
    ((StableHlo.after_of_forall_not_mem (b := Proc.devRef .tc main_v2) _ _ (List.forall_iff_forall_mem.mp (by
      simp only [hostOps1, List.Forall, StableHlo.reshape_writes, Finset.mem_singleton]
      repeat' apply And.intro
      all_goals exact StableHlo.devRef_ne_of_ne (by decide)))).trans
    (W2_of_ne m ρ c main_v2 (by decide)))))

/-- Nothing between boundary 3 and boundary 7 writes `main_v4`. -/
theorem keep_main_v4_7_3 (c : Dev nD) : W7 m ρ c (Proc.devRef .tc main_v4) = W3 m ρ c (Proc.devRef .tc main_v4) :=
  ((StableHlo.after_of_forall_not_mem (b := Proc.devRef .tc main_v4) _ _ (List.forall_iff_forall_mem.mp (by
      simp only [hostOps3, List.Forall, StableHlo.reshape_writes, Finset.mem_singleton]
      repeat' apply And.intro
      all_goals exact StableHlo.devRef_ne_of_ne (by decide)))).trans
    ((W6_of_ne m ρ c main_v4 (by decide)).trans
    ((StableHlo.after_of_forall_not_mem (b := Proc.devRef .tc main_v4) _ _ (List.forall_iff_forall_mem.mp (by
      simp only [hostOps2, List.Forall, StableHlo.reshape_writes, Finset.mem_singleton]
      repeat' apply And.intro
      all_goals exact StableHlo.devRef_ne_of_ne (by decide)))).trans
    (W4_of_ne m ρ c main_v4 (by decide)))))

/-- Nothing between boundary 5 and boundary 7 writes `main_v6`. -/
theorem keep_main_v6_7_5 (c : Dev nD) : W7 m ρ c (Proc.devRef .tc main_v6) = W5 m ρ c (Proc.devRef .tc main_v6) :=
  ((StableHlo.after_of_forall_not_mem (b := Proc.devRef .tc main_v6) _ _ (List.forall_iff_forall_mem.mp (by
      simp only [hostOps3, List.Forall, StableHlo.reshape_writes, Finset.mem_singleton]
      repeat' apply And.intro
      all_goals exact StableHlo.devRef_ne_of_ne (by decide)))).trans
    (W6_of_ne m ρ c main_v6 (by decide)))

/-- Nothing between boundary 0 and boundary 9 writes `main_arg6`. -/
theorem keep_main_arg6_9_0 (c : Dev nD) : W9 m ρ c (Proc.devRef .tc main_arg6) = W0 m ρ c (Proc.devRef .tc main_arg6) :=
  ((StableHlo.after_of_forall_not_mem (b := Proc.devRef .tc main_arg6) _ _ (List.forall_iff_forall_mem.mp (by
      simp only [hostOps4, List.Forall, StableHlo.reshape_writes, Finset.mem_singleton]
      repeat' apply And.intro
      all_goals exact StableHlo.devRef_ne_of_ne (by decide)))).trans
    ((W8_of_ne m ρ c main_arg6 (by decide)).trans
    ((StableHlo.after_of_forall_not_mem (b := Proc.devRef .tc main_arg6) _ _ (List.forall_iff_forall_mem.mp (by
      simp only [hostOps3, List.Forall, StableHlo.reshape_writes, Finset.mem_singleton]
      repeat' apply And.intro
      all_goals exact StableHlo.devRef_ne_of_ne (by decide)))).trans
    ((W6_of_ne m ρ c main_arg6 (by decide)).trans
    ((StableHlo.after_of_forall_not_mem (b := Proc.devRef .tc main_arg6) _ _ (List.forall_iff_forall_mem.mp (by
      simp only [hostOps2, List.Forall, StableHlo.reshape_writes, Finset.mem_singleton]
      repeat' apply And.intro
      all_goals exact StableHlo.devRef_ne_of_ne (by decide)))).trans
    ((W4_of_ne m ρ c main_arg6 (by decide)).trans
    ((StableHlo.after_of_forall_not_mem (b := Proc.devRef .tc main_arg6) _ _ (List.forall_iff_forall_mem.mp (by
      simp only [hostOps1, List.Forall, StableHlo.reshape_writes, Finset.mem_singleton]
      repeat' apply And.intro
      all_goals exact StableHlo.devRef_ne_of_ne (by decide)))).trans
    ((W2_of_ne m ρ c main_arg6 (by decide)).trans
    (StableHlo.after_of_forall_not_mem (b := Proc.devRef .tc main_arg6) _ _ (List.forall_iff_forall_mem.mp (by
      simp only [hostOps0, List.Forall, StableHlo.reshape_writes, Finset.mem_singleton]
      repeat' apply And.intro
      all_goals exact StableHlo.devRef_ne_of_ne (by decide))))))))))))

end Cert.KernelIdeal.Keep

end
-- ==== Proof.LibMatmulNT.lean ====
/-
  A matrix product against a transposed right operand, read at an index. General in the three extents: an [M, K]
  left operand, an [N, K] right operand (rows are output features, as a linear layer stores its weights), contracted
  over the second axis of BOTH, into the zero accumulator: at (p, q) it is the inner product of row p of the left
  operand with row q of the right.

  * `matmul_zero_nt_ix2`: stated under the facts of the dimension record (one contracted axis of extent K, axis 1 of
    each operand, the free axes in place), each of which is `rfl` or a two-line unfolding at a literal record.
-/
import Idealize.ShloMosaic.PureOps.Ideal
import Idealize.ShloMosaic.PureOps.Ideal.Laws
import Idealize.ShloMosaic.Lib.ValueIdx

noncomputable section

namespace Cert.MatmulNT

open Idealize.ShloMosaic Idealize.ShloMosaic.ValueIdx

/-- A product of an [M, K] by an [N, K] operand over the second axis of both, into zeros, at (p, q): the inner
    product of row p with row q. -/
theorem matmul_zero_nt_ix2 {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (i : (⟨2, ![M, N]⟩ : Shape).Idx) (q : D.contr.Idx), (D.lhsIdx i q 0).val = (i 0).val)
    (hr0 : ∀ (i : (⟨2, ![M, N]⟩ : Shape).Idx) (q : D.contr.Idx), (D.rhsIdx i q 0).val = (i 1).val)
    (h : FVec Ideal ⟨2, ![M, K]⟩ φ₁) (w : FVec Ideal ⟨2, ![N, K]⟩ φ₂) (p : Fin M) (q : Fin N) :
    FloatOps.matmul D none h w (constant ⟨2, ![M, N]⟩ .f32 0x00000000#32) (ix2 p q)
      = ∑ k : Fin K, h (ix2 p k) * w (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact hr0 _ _
    | ⟨1, _⟩ => exact (D.rhsIdx_val_of_single hrc _ _).trans hk)
  rw [el, er]

end Cert.MatmulNT

end
-- ==== Proof.LinBody.lean ====
/-
  The four linear-layer bodies, read at an index. Each kernel region of this kind loads a [1024, 1024] block of
  activations and the whole [1024, 1024] weight array, narrows both to bf16 (the identity on the extended reals),
  contracts the second axis of both into a zero accumulator, and stores the product (narrowed again for the three
  projections): at (p, q) that is the inner product of row p of the activations with row q of the weights.
-/
import proofs.«102316_j51908974739732_2_alg».proof.Proof.Gen.KernelIdeal.Skeleton
import proofs.«102316_j51908974739732_2_alg».proof.Proof.LibMatmulNT
import Idealize.ShloMosaic.Lib.Pipeline.Value
import Idealize.ShloMosaic.Lib.ValueIdx
import Idealize.ShloMosaic.PureOps.Ideal.Laws

noncomputable section

namespace Cert.KernelIdeal.LinBody

open Cert.KernelIdeal Cert.KernelIdeal.Gen Idealize.ShloMosaic Idealize.ShloMosaic.ValueIdx

/-- A linear layer over the flat [8192, 1024] array of rows: entry (r, e) is the inner product of row r of the
    activations with row e of the weights. -/
def linFlat (X : S8192x1024.Idx → EReal) (W : S1024x1024.Idx → EReal) : S8192x1024.Idx → EReal :=
  fun i => ∑ d : Fin 1024, X (ix2 (i 0) d) * W (ix2 (i 1) d)

/-- The free axis of the left operand of the layers' contraction is the output's first axis. -/
theorem dotLin_l0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The free axis of the right operand is the output's second axis. -/
theorem dotLin_r0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The body of linear region 0 at (p, q): row p of the activation block against row q of the weight block. -/
theorem pay0_apply (x0 : Vec Ideal S1024x1024 .f32) (x1 : Vec Ideal S1024x1024 .f32) (p q : Fin 1024) :
    k0_pay1 (F := Ideal) x0 x1 (ix2 p q) = ∑ d : Fin 1024, x0 (ix2 p d) * x1 (ix2 q d) := by
  unfold k0_pay1
  refine (Cert.MatmulNT.matmul_zero_nt_ix2 dot_S1024x1024_S1024x1024_S1024x1024_1_1_0_0_n_n rfl rfl rfl rfl dotLin_l0 dotLin_r0 _ _ p q).trans ?_
  refine Finset.sum_congr rfl fun d _ => ?_
  rw [shapeCast_self]
  rfl

/-- The body of linear region 1 at (p, q): row p of the activation block against row q of the weight block. -/
theorem pay1_apply (x0 : Vec Ideal S1024x1024 .f32) (x1 : Vec Ideal S1024x1024 .f32) (p q : Fin 1024) :
    k1_pay1 (F := Ideal) x0 x1 (ix2 p q) = ∑ d : Fin 1024, x0 (ix2 p d) * x1 (ix2 q d) := by
  unfold k1_pay1
  refine (Cert.MatmulNT.matmul_zero_nt_ix2 dot_S1024x1024_S1024x1024_S1024x1024_1_1_0_0_n_n rfl rfl rfl rfl dotLin_l0 dotLin_r0 _ _ p q).trans ?_
  refine Finset.sum_congr rfl fun d _ => ?_
  rw [shapeCast_self]
  rfl

/-- The body of linear region 2 at (p, q): row p of the activation block against row q of the weight block. -/
theorem pay2_apply (x0 : Vec Ideal S1024x1024 .f32) (x1 : Vec Ideal S1024x1024 .f32) (p q : Fin 1024) :
    k2_pay1 (F := Ideal) x0 x1 (ix2 p q) = ∑ d : Fin 1024, x0 (ix2 p d) * x1 (ix2 q d) := by
  unfold k2_pay1
  refine (Cert.MatmulNT.matmul_zero_nt_ix2 dot_S1024x1024_S1024x1024_S1024x1024_1_1_0_0_n_n rfl rfl rfl rfl dotLin_l0 dotLin_r0 _ _ p q).trans ?_
  refine Finset.sum_congr rfl fun d _ => ?_
  rw [shapeCast_self]
  rfl

/-- The body of linear region 4 at (p, q): row p of the activation block against row q of the weight block. -/
theorem pay4_apply (x0 : Vec Ideal S1024x1024 .bf16) (x1 : Vec Ideal S1024x1024 .f32) (p q : Fin 1024) :
    k4_pay1 (F := Ideal) x0 x1 (ix2 p q) = ∑ d : Fin 1024, x0 (ix2 p d) * x1 (ix2 q d) := by
  unfold k4_pay1
  refine (Cert.MatmulNT.matmul_zero_nt_ix2 dot_S1024x1024_S1024x1024_S1024x1024_1_1_0_0_n_n rfl rfl rfl rfl dotLin_l0 dotLin_r0 _ _ p q).trans ?_
  refine Finset.sum_congr rfl fun d _ => ?_
  rw [shapeCast_self]
  rfl

end Cert.KernelIdeal.LinBody

end
-- ==== Proof.Spec.lean ====
/-
  Multi-head attention over the extended reals, index by index: what both programs compute.

  Shapes: batch 4, sequence 2048, model width 1024 = 16 heads of 64 columns. A linear layer `proj x w` sends row
  (b, s) of `x` to its inner products with the rows of `w` (weights stored [out, in]). Column `e` of the model
  width belongs to head `e / 64`, whose 64 columns are `hcol e j = (e / 64) * 64 + j`. For a query row (b, s) and a
  key row (b, kk) the head's score is the inner product of the two rows over the head's columns (`dots`).

  The two programs differ in how they spell the rest:
  * the kernel scales the score by the word for 1/8, takes the row maximum from -inf, exponentiates the
    difference, and divides the weighted sum of the value rows by the sum of the weights ONCE at the end (`attnK`);
  * the reference divides the score by the word for 8, takes the maximum of -inf with the row maximum, divides each
    weight by the sum of the weights first, and then takes the weighted sum of the value rows (`attnR`).
-/
import Idealize.ShloMosaic.PureOps.Ideal
import Idealize.ShloMosaic.Lib.ValueIdx

noncomputable section

namespace Cert.Mha

open Idealize.ShloMosaic Idealize.ShloMosaic.ValueIdx

/-- An activation array [4, 2048, 1024] and a weight array [1024, 1024], as functions of the index. -/
abbrev Act := (⟨3, ![4, 2048, 1024]⟩ : Shape).Idx → EReal
abbrev Wt := (⟨2, ![1024, 1024]⟩ : Shape).Idx → EReal

/-- A linear layer at (b, s, e): the inner product of row (b, s) of `x` with row `e` of `w`. -/
def projAt (x : Act) (w : Wt) (b : Fin 4) (s : Fin 2048) (e : Fin 1024) : EReal :=
  ∑ d : Fin 1024, x (ix3 b s d) * w (ix2 e d)
def proj (x : Act) (w : Wt) : Act := fun i => projAt x w (i 0) (i 1) (i 2)

/-- Column `j` of the head that column `e` belongs to. -/
def hcol (e : Fin 1024) (j : Fin 64) : Fin 1024 := ⟨e.val / 64 * 64 + j.val, by omega⟩

/-- The score of query row (b, s) against key row (b, kk) in the head of column `e`, before scaling. -/
def dots (Q K : Act) (b : Fin 4) (s : Fin 2048) (e : Fin 1024) (kk : Fin 2048) : EReal :=
  ∑ j : Fin 64, Q (ix3 b s (hcol e j)) * K (ix3 b kk (hcol e j))

/-- The words the programs print: -inf, 1/8 and 8 in f32. -/
def ninf : EReal := Ideal.ofBits .f32 0xFF800000#32
def cEighth : EReal := Ideal.ofBits .f32 0x3E000000#32
def cEight : EReal := Ideal.ofBits .f32 0x41000000#32

/-! ## The kernel's spelling -/

def scK (Q K : Act) (b : Fin 4) (s : Fin 2048) (e : Fin 1024) (kk : Fin 2048) : EReal := dots Q K b s e kk * cEighth
def mxK (Q K : Act) (b : Fin 4) (s : Fin 2048) (e : Fin 1024) : EReal :=
  (Finset.univ : Finset (Fin 2048)).fold max ninf (fun kk => scK Q K b s e kk)
def pK (Q K : Act) (b : Fin 4) (s : Fin 2048) (e : Fin 1024) (kk : Fin 2048) : EReal :=
  Ideal.exp (scK Q K b s e kk - mxK Q K b s e)
def attnKAt (Q K V : Act) (b : Fin 4) (s : Fin 2048) (e : Fin 1024) : EReal :=
  Ideal.div (∑ kk : Fin 2048, pK Q K b s e kk * V (ix3 b kk e)) (∑ kk : Fin 2048, pK Q K b s e kk)
def attnK (Q K V : Act) : Act := fun i => attnKAt Q K V (i 0) (i 1) (i 2)

/-! ## The reference's spelling -/

def scR (Q K : Act) (b : Fin 4) (s : Fin 2048) (e : Fin 1024) (kk : Fin 2048) : EReal := Ideal.div (dots Q K b s e kk) cEight
def mxR (Q K : Act) (b : Fin 4) (s : Fin 2048) (e : Fin 1024) : EReal :=
  max ninf ((Finset.univ : Finset (Fin 2048)).fold max ninf (fun kk => scR Q K b s e kk))
def pR (Q K : Act) (b : Fin 4) (s : Fin 2048) (e : Fin 1024) (kk : Fin 2048) : EReal :=
  Ideal.exp (scR Q K b s e kk - mxR Q K b s e)
def attnRAt (Q K V : Act) (b : Fin 4) (s : Fin 2048) (e : Fin 1024) : EReal :=
  ∑ kk : Fin 2048, Ideal.div (pR Q K b s e kk) (∑ k' : Fin 2048, pR Q K b s e k') * V (ix3 b kk e)
def attnR (Q K V : Act) : Act := fun i => attnRAt Q K V (i 0) (i 1) (i 2)

/-- The whole layer, in the kernel's spelling and in the reference's. -/
def mhaK (q k v : Act) (wq wk wv wo : Wt) : Act := proj (attnK (proj q wq) (proj k wk) (proj v wv)) wo
def mhaR (q k v : Act) (wq wk wv wo : Wt) : Act := proj (attnR (proj q wq) (proj k wk) (proj v wv)) wo

/-- Every entry is a real number. -/
def IsReal {ι : Type} (f : ι → EReal) : Prop := ∀ i, ∃ r : ℝ, f i = (r : EReal)

end Cert.Mha

end
-- ==== Proof.Flat.lean ====
/-
  The flat view of an activation array. The kernel program runs each linear layer on the [4, 2048, 1024] array viewed
  as [8192, 1024] rows (row r = 2048 b + s) and views the result back as [4, 2048, 1024]: the two views read the same
  entries, so a linear layer over the flat rows, viewed back, is the layer `proj` over (b, s).
-/
import proofs.«102316_j51908974739732_2_alg».proof.Proof.LinBody
import proofs.«102316_j51908974739732_2_alg».proof.Proof.Spec
import Idealize.ShloMosaic.Lib.Pipeline.Value

noncomputable section

namespace Cert.KernelIdeal.Flat

open Cert.KernelIdeal Cert.KernelIdeal.LinBody Cert.Mha Idealize.ShloMosaic Idealize.ShloMosaic.ValueIdx

variable {α : Type}

/-- The flat view at (r, d) reads the array at (r / 2048, r % 2048, d). -/
theorem flat_apply (x : S4x2048x1024.Idx → α) (h : S4x2048x1024.ShapeCasts S8192x1024) (b : Fin 4) (s : Fin 2048) (d : Fin 1024) :
    shapeCast S8192x1024 x h (ix2 (⟨b.val * 2048 + s.val, by omega⟩ : Fin 8192) d) = x (ix3 b s d) :=
  shapeCast_apply x h _ _ (by
    rw [Shape.rowMajor_val_three, Shape.rowMajor_val_two]
    rfl)

/-- The array view of flat rows at (b, s, e) reads row 2048 b + s at column e. -/
theorem unflat_apply (y : S8192x1024.Idx → α) (h : S8192x1024.ShapeCasts S4x2048x1024) (b : Fin 4) (s : Fin 2048) (e : Fin 1024) :
    shapeCast S4x2048x1024 y h (ix3 b s e) = y (ix2 (⟨b.val * 2048 + s.val, by omega⟩ : Fin 8192) e) :=
  shapeCast_apply y h _ _ (by
    rw [Shape.rowMajor_val_three, Shape.rowMajor_val_two]
    rfl)

/-- A linear layer over the flat rows of `x`, viewed back as an array, is the layer over (b, s). -/
theorem unflat_lin_flat (x : Act) (w : Wt) (h1 : S4x2048x1024.ShapeCasts S8192x1024) (h2 : S8192x1024.ShapeCasts S4x2048x1024) :
    shapeCast S4x2048x1024 (linFlat (shapeCast S8192x1024 x h1) w) h2 = proj x w := by
  funext i
  obtain ⟨b, s, e, rfl⟩ : ∃ (b : Fin 4) (s : Fin 2048) (e : Fin 1024), i = ix3 b s e := ⟨i 0, i 1, i 2, eq_ix3 i⟩
  rw [unflat_apply]
  show ∑ d : Fin 1024, shapeCast S8192x1024 x h1 (ix2 (⟨b.val * 2048 + s.val, by omega⟩ : Fin 8192) d) * w (ix2 e d) = ∑ d : Fin 1024, x (ix3 b s d) * w (ix2 e d)
  refine Finset.sum_congr rfl fun d _ => ?_
  rw [flat_apply]

end Cert.KernelIdeal.Flat

end
-- ==== Proof.R0.lean ====
/-
  Linear region 0: the whole output array after the region, as one function of the arrays it found.

  The region walks 8 row blocks of 1024 rows. At block t it loads rows [1024 t, 1024 t + 1024) of the activation
  array and the whole weight array, and writes back the same rows of the output: entry (r, e) of the output is the
  inner product of row r of the activations with row e of the weights (`linFlat`). The 8 blocks tile the output, so
  after the region the array holds `linFlat` everywhere.
-/
import proofs.«102316_j51908974739732_2_alg».proof.Proof.Gen.KernelIdeal.Frame
import proofs.«102316_j51908974739732_2_alg».proof.Proof.LinBody
import Idealize.ShloMosaic.Lib.Pipeline.Value

set_option maxRecDepth 16384

noncomputable section

namespace Cert.KernelIdeal.R0

open Cert.KernelIdeal Cert.KernelIdeal.Gen Cert.KernelIdeal.LinBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the activation and output windows sit at row block t and column
    block 0, the weight window at block (0, 0). -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every row block is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- What point t writes back is block t of `linFlat` of the two arrays as the region finds them. -/
theorem flushed_eq (c : Dev nD) (t : Fin cfg0.N) :
    (dat0 V c).flushed 2 t = ((cfg0.win 2).blk t).view.read (Elt Ideal) (linFlat (V c main_v0) (V c main_arg3)) := by
  show (cfg0.win 2).cut (grid0.coords t) ((dat0 V c).after 2 t) = _
  rw [after0_2]
  unfold out0_2
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  refine (pay0_apply (iblk0 V c 0 t) (iblk0 V c 1 t) p q).trans ?_
  show _ = linFlat (V c main_v0) (V c main_arg3) (((cfg0.win 2).blk t).view.emb (ix2 p q))
  unfold linFlat
  refine Finset.sum_congr rfl fun d _ => ?_
  have h0 : iblk0 V c 0 t (ix2 p d) = V c main_v0 (ix2 ((((cfg0.win 2).blk t).view.emb (ix2 p q)) 0) d) := by
    show V c main_v0 (((cfg0.win 0).blk t).view.emb (ix2 p d)) = _
    refine congrArg (V c main_v0) ?_
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * d.val = d.val; omega
  have h1 : iblk0 V c 1 t (ix2 q d) = V c main_arg3 (ix2 ((((cfg0.win 2).blk t).view.emb (ix2 p q)) 1) d) := by
    show V c main_arg3 (((cfg0.win 1).blk t).view.emb (ix2 q d)) = _
    refine congrArg (V c main_arg3) ?_
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 1024 + 1 * d.val = d.val; omega
  rw [h0, h1]

/-- An index of the output array is in point t's block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The blocks cover the output array: row r is in block r / 1024. -/
theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region. -/
theorem final (c : Dev nD) : (dat0 V c).arrAt 2 cfg0.N = linFlat (V c main_v0) (V c main_arg3) :=
  (dat0 V c).arrAt_eq_of_cover 2 (linFlat (V c main_v0) (V c main_arg3)) (fun t _ => flushed_eq V c t) cover

end Cert.KernelIdeal.R0

end
-- ==== Proof.R1.lean ====
/-
  Linear region 1: the whole output array after the region, as one function of the arrays it found.

  The region walks 8 row blocks of 1024 rows. At block t it loads rows [1024 t, 1024 t + 1024) of the activation
  array and the whole weight array, and writes back the same rows of the output: entry (r, e) of the output is the
  inner product of row r of the activations with row e of the weights (`linFlat`). The 8 blocks tile the output, so
  after the region the array holds `linFlat` everywhere.
-/
import proofs.«102316_j51908974739732_2_alg».proof.Proof.Gen.KernelIdeal.Frame
import proofs.«102316_j51908974739732_2_alg».proof.Proof.LinBody
import Idealize.ShloMosaic.Lib.Pipeline.Value

set_option maxRecDepth 16384

noncomputable section

namespace Cert.KernelIdeal.R1

open Cert.KernelIdeal Cert.KernelIdeal.Gen Cert.KernelIdeal.LinBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the activation and output windows sit at row block t and column
    block 0, the weight window at block (0, 0). -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 7 :=
  (by decide +kernel : ∀ t : Fin grid1.N, _)

/-- Every row block is some point's. -/
theorem idx_onto : ∀ (q0 : Fin 8), ∃ t : Fin cfg1.N, win1_2.index t = ![q0.val, 0] :=
  (by decide +kernel : ∀ (q0 : Fin 8), ∃ t : Fin grid1.N, win1_2.index t = ![q0.val, 0])

/-- What point t writes back is block t of `linFlat` of the two arrays as the region finds them. -/
theorem flushed_eq (c : Dev nD) (t : Fin cfg1.N) :
    (dat1 V c).flushed 2 t = ((cfg1.win 2).blk t).view.read (Elt Ideal) (linFlat (V c main_v1) (V c main_arg4)) := by
  show (cfg1.win 2).cut (grid1.coords t) ((dat1 V c).after 2 t) = _
  rw [after1_2]
  unfold out1_2
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  refine (pay1_apply (iblk1 V c 0 t) (iblk1 V c 1 t) p q).trans ?_
  show _ = linFlat (V c main_v1) (V c main_arg4) (((cfg1.win 2).blk t).view.emb (ix2 p q))
  unfold linFlat
  refine Finset.sum_congr rfl fun d _ => ?_
  have h0 : iblk1 V c 0 t (ix2 p d) = V c main_v1 (ix2 ((((cfg1.win 2).blk t).view.emb (ix2 p q)) 0) d) := by
    show V c main_v1 (((cfg1.win 0).blk t).view.emb (ix2 p d)) = _
    refine congrArg (V c main_v1) ?_
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 1024 + 1 * d.val = d.val; omega
  have h1 : iblk1 V c 1 t (ix2 q d) = V c main_arg4 (ix2 ((((cfg1.win 2).blk t).view.emb (ix2 p q)) 1) d) := by
    show V c main_arg4 (((cfg1.win 1).blk t).view.emb (ix2 q d)) = _
    refine congrArg (V c main_arg4) ?_
    funext a; apply Fin.ext
    match a with
    | ⟨0, _⟩ => show win1_1.index t (0 : Fin 2) * 1024 + 1 * q.val = win1_2.index t (1 : Fin 2) * 1024 + 1 * q.val; omega
    | ⟨1, _⟩ => show win1_1.index t (1 : Fin 2) * 1024 + 1 * d.val = d.val; omega
  rw [h0, h1]

/-- An index of the output array is in point t's block iff each coordinate is in the block's range on its axis. -/
theorem mem_blk (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v5).slice (win1_2.rect t)).set ↔ _
  rw [View.set_slice_whole, Rect.mem_set_unit]
  exact Iff.rfl

/-- The blocks cover the output array: row r is in block r / 1024. -/
theorem cover (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  obtain ⟨t, ht⟩ := idx_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The output array after the region. -/
theorem final (c : Dev nD) : (dat1 V c).arrAt 2 cfg1.N = linFlat (V c main_v1) (V c main_arg4) :=
  (dat1 V c).arrAt_eq_of_cover 2 (linFlat (V c main_v1) (V c main_arg4)) (fun t _ => flushed_eq V c t) cover

end Cert.KernelIdeal.R1

end
-- ==== Proof.R2.lean ====
/-
  Linear region 2: the whole output array after the region, as one function of the arrays it found.

  The region walks 8 row blocks of 1024 rows. At block t it loads rows [1024 t, 1024 t + 1024) of the activation
  array and the whole weight array, and writes back the same rows of the output: entry (r, e) of the output is the
  inner product of row r of the activations with row e of the weights (`linFlat`). The 8 blocks tile the output, so
  after the region the array holds `linFlat` everywhere.
-/
import proofs.«102316_j51908974739732_2_alg».proof.Proof.Gen.KernelIdeal.Frame
import proofs.«102316_j51908974739732_2_alg».proof.Proof.LinBody
import Idealize.ShloMosaic.Lib.Pipeline.Value

set_option maxRecDepth 16384

noncomputable section

namespace Cert.KernelIdeal.R2

open Cert.KernelIdeal Cert.KernelIdeal.Gen Cert.KernelIdeal.LinBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the activation and output windows sit at row block t and column
    block 0, the weight window at block (0, 0). -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every row block is some point's. -/
theorem idx_onto : ∀ (q0 : Fin 8), ∃ t : Fin cfg2.N, win2_2.index t = ![q0.val, 0] :=
  (by decide +kernel : ∀ (q0 : Fin 8), ∃ t : Fin grid2.N, win2_2.index t = ![q0.val, 0])

/-- What point t writes back is block t of `linFlat` of the two arrays as the region finds them. -/
theorem flushed_eq (c : Dev nD) (t : Fin cfg2.N) :
    (dat2 V c).flushed 2 t = ((cfg2.win 2).blk t).view.read (Elt Ideal) (linFlat (V c main_v2) (V c main_arg5)) := by
  show (cfg2.win 2).cut (grid2.coords t) ((dat2 V c).after 2 t) = _
  rw [after2_2]
  unfold out2_2
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  refine (pay2_apply (iblk2 V c 0 t) (iblk2 V c 1 t) p q).trans ?_
  show _ = linFlat (V c main_v2) (V c main_arg5) (((cfg2.win 2).blk t).view.emb (ix2 p q))
  unfold linFlat
  refine Finset.sum_congr rfl fun d _ => ?_
  have h0 : iblk2 V c 0 t (ix2 p d) = V c main_v2 (ix2 ((((cfg2.win 2).blk t).view.emb (ix2 p q)) 0) d) := by
    show V c main_v2 (((cfg2.win 0).blk t).view.emb (ix2 p d)) = _
    refine congrArg (V c main_v2) ?_
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 1024 + 1 * d.val = d.val; omega
  have h1 : iblk2 V c 1 t (ix2 q d) = V c main_arg5 (ix2 ((((cfg2.win 2).blk t).view.emb (ix2 p q)) 1) d) := by
    show V c main_arg5 (((cfg2.win 1).blk t).view.emb (ix2 q d)) = _
    refine congrArg (V c main_arg5) ?_
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 1024 + 1 * d.val = d.val; omega
  rw [h0, h1]

/-- An index of the output array is in point t's block iff each coordinate is in the block's range on its axis. -/
theorem mem_blk (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v7).slice (win2_2.rect t)).set ↔ _
  rw [View.set_slice_whole, Rect.mem_set_unit]
  exact Iff.rfl

/-- The blocks cover the output array: row r is in block r / 1024. -/
theorem cover (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  obtain ⟨t, ht⟩ := idx_onto ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after the region. -/
theorem final (c : Dev nD) : (dat2 V c).arrAt 2 cfg2.N = linFlat (V c main_v2) (V c main_arg5) :=
  (dat2 V c).arrAt_eq_of_cover 2 (linFlat (V c main_v2) (V c main_arg5)) (fun t _ => flushed_eq V c t) cover

end Cert.KernelIdeal.R2

end
-- ==== Proof.LibDense.lean ====
/-
  A dense (affine) layer on the extended reals, and how a kernel's matrix product plus bias row reads at an index.
  General in the three extents: M rows, K input features, N output features.

  * `dense W b h j = (sum over k of h k * W k j) + b j`: one affine layer applied to one row `h`, the weights indexed
    (input feature, output feature).
  * `matmul_zero_ix2`: a matrix product of an [M, K] by a [K, N] operand into the zero accumulator, at (p, q), is the
    inner product of row p with column q. Stated under the facts of the dimension record (one contracted axis of
    extent K, axis 1 of the left operand against axis 0 of the right, the free axes in place), each of which is
    `rfl` or a two-line unfolding at a literal record.
  * `layer_ix2`: the layer as a kernel body spells it — operands narrowed to bf16 (the identity on the extended
    reals), the weights through a same-shape cast, the product into zeros, the bias [N] viewed as [1, N], repeated
    down the rows and added — at (p, q) is `dense` of row p.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.DenseLayer

open Idealize.ShloMosaic Idealize.ShloMosaic.ValueIdx

/-- One affine layer applied to a row `h` of `K` features: output feature `j` is the inner product of the row with
    column `j` of the weights, plus the bias. -/
def dense {K N : ℕ} (W : Fin K → Fin N → EReal) (b : Fin N → EReal) (h : Fin K → EReal) (j : Fin N) : EReal :=
  (∑ k : Fin K, h k * W k j) + b j

/-! ## A matrix product and a bias row, read at an index -/

/-- A matrix product of an [M, K] by a [K, N] operand into the zero accumulator, read at (p, q): the inner product
    of row p with column q. The hypotheses are the facts of the dimension record: one contracted axis of extent K,
    axis 1 of the left operand against axis 0 of the right, the free axes kept in place. -/
theorem matmul_zero_ix2 {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    (h : FVec Ideal ⟨2, ![M, K]⟩ φ₁) (w : FVec Ideal ⟨2, ![K, N]⟩ φ₂) (p : Fin M) (q : Fin N) :
    FloatOps.matmul D none h w (constant ⟨2, ![M, N]⟩ .f32 0x00000000#32) (ix2 p q)
      = ∑ k : Fin K, h (ix2 p k) * w (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact hr1 _ _)
  rw [el, er]

/-- A layer as the kernel body spells it — both operands narrowed to bf16 (the identity on the extended reals), the
    weights passed through a same-shape cast, the product taken into zeros, the bias row [N] viewed as [1, N] and
    repeated down the M rows, then added — read at (p, q): `dense` of row p. -/
theorem layer_ix2 {M K N : ℕ} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    (hn : FTy.bits .bf16 < FTy.bits .f32)
    (hww : (⟨2, ![K, N]⟩ : Shape).ShapeCasts ⟨2, ![K, N]⟩) (hb1 : (⟨1, ![N]⟩ : Shape).ShapeCasts ⟨2, ![1, N]⟩)
    (hbb : (⟨2, ![1, N]⟩ : Shape).Broadcasts ⟨2, ![M, N]⟩)
    (h : FVec Ideal ⟨2, ![M, K]⟩ .f32) (w : FVec Ideal ⟨2, ![K, N]⟩ .f32) (b : FVec Ideal ⟨1, ![N]⟩ .f32)
    (p : Fin M) (q : Fin N) :
    addf (matmul D none (truncf .bf16 h hn) (truncf .bf16 (shapeCast ⟨2, ![K, N]⟩ w hww) hn)
        (constant (F := Ideal) ⟨2, ![M, N]⟩ .f32 0x00000000#32))
      (broadcastTo ⟨2, ![M, N]⟩ (shapeCast ⟨2, ![1, N]⟩ b hb1) hbb) (ix2 p q)
      = dense (fun k j => w (ix2 k j)) (fun j => b (ix1 j)) (fun k => h (ix2 p k)) q := by
  rw [addf_apply, broadcastTo_1b_ab_apply, shapeCast_a_1a_apply, shapeCast_self]
  simp only [matmul]
  rw [matmul_zero_ix2 D hr hs hlc hrc hl0 hr1]
  rfl

end Cert.DenseLayer

end
-- ==== Proof.LibKeepdims.lean ====
/-
  Two layout operations a row reduction with kept dimensions needs, read at an index. General in the extents.

  * `shapeCast_a_a1_apply`: an [a] vector viewed as an [a, 1] column reads, at (i, u), the vector at i.
  * `broadcastTo_a1_ab_apply`: an [a, 1] column repeated across b columns reads, at (p, c), the column at (p, 0).
-/
import Idealize.ShloMosaic.Lib.Pipeline.Value
import Idealize.ShloMosaic.Lib.ValueIdx

noncomputable section

namespace Cert.Keepdims

open Idealize.ShloMosaic Idealize.ShloMosaic.ValueIdx

variable {α : Type}

/-- An [a] vector viewed as an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated across b columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.Sdpa.lean ====
/-
  One row of scaled-dot-product attention as a function of the row's scores and of one column of the values:
  the scores are shifted by their maximum (taken from -inf), exponentiated, and the weighted sum of the value column is
  divided by the sum of the weights. The kernel's spelling of attention (`attnKAt`) is this function of the scaled
  scores of its head and of the value array's column.
-/
import proofs.«102316_j51908974739732_2_alg».proof.Proof.Spec

noncomputable section

namespace Cert.Mha

open Idealize.ShloMosaic Idealize.ShloMosaic.ValueIdx

/-- Softmax-weighted average of `vcol` under the scores `sc`, the division done once at the end. -/
def sdpaS (sc vcol : Fin 2048 → EReal) : EReal :=
  Ideal.div (∑ kk : Fin 2048, Ideal.exp (sc kk - (Finset.univ : Finset (Fin 2048)).fold max ninf sc) * vcol kk)
    (∑ kk : Fin 2048, Ideal.exp (sc kk - (Finset.univ : Finset (Fin 2048)).fold max ninf sc))

/-- The kernel's attention at (b, s, e) is that function of the head's scaled scores and of column e of the values. -/
theorem attnKAt_eq_sdpaS (Q K V : Act) (b : Fin 4) (s : Fin 2048) (e : Fin 1024) :
    attnKAt Q K V b s e = sdpaS (fun kk => scK Q K b s e kk) (fun kk => V (ix3 b kk e)) := rfl

end Cert.Mha

end
-- ==== Proof.AttnBody.lean ====
/-
  The attention kernel's body, read at an index. One grid point holds a [1, 512, 128] block of query rows and
  [1, 2048, 128] blocks of key and value rows: two heads of 64 columns each. For each head the body contracts the
  query rows with the key rows over the head's 64 columns, scales by 1/8, shifts each row of scores by its maximum,
  exponentiates, and divides the product of the weights with the head's value columns by the row sums of the weights.
  At row p and column d of the head this is `sdpaS` of row p's scaled scores and of column d of the head's values.
-/
import proofs.«102316_j51908974739732_2_alg».proof.Proof.Gen.KernelIdeal.Skeleton
import proofs.«102316_j51908974739732_2_alg».proof.Proof.LibMatmulNT
import proofs.«102316_j51908974739732_2_alg».proof.Proof.LibDense
import proofs.«102316_j51908974739732_2_alg».proof.Proof.LibKeepdims
import proofs.«102316_j51908974739732_2_alg».proof.Proof.Sdpa
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.AttnBody

open Cert.KernelIdeal Cert.KernelIdeal.Gen Cert.Mha Idealize.ShloMosaic Idealize.ShloMosaic.ValueIdx

/-! ## The two contractions' dimension records -/

theorem dqk_l0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dqk_r0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dpv_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dpv_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The scaled scores -/

/-- Query rows against key rows over a head's 64 columns, scaled by the word for 1/8, at (p, kk). -/
theorem scores_apply (q1 : FVec Ideal S512x64 .bf16) (k1 : FVec Ideal S2048x64 .bf16) (p : Fin 512) (kk : Fin 2048) :
    mulf (matmul dot_S512x64_S2048x64_S512x2048_1_1_0_0_n_n none q1 k1 (constant (F := Ideal) S512x2048 .f32 0x00000000#32))
      (broadcast S512x2048 (Scalar.ofBits (F := Ideal) .f32 0x3E000000#32)) (ix2 p kk)
      = (∑ j : Fin 64, q1 (ix2 p j) * k1 (ix2 kk j)) * cEighth := by
  show FloatOps.matmul dot_S512x64_S2048x64_S512x2048_1_1_0_0_n_n none q1 k1 (constant (F := Ideal) S512x2048 .f32 0x00000000#32) (ix2 p kk) * cEighth = _
  rw [Cert.MatmulNT.matmul_zero_nt_ix2 dot_S512x64_S2048x64_S512x2048_1_1_0_0_n_n rfl rfl rfl rfl dqk_l0 dqk_r0]

/-- The second head's scaled scores, from its loaded [1, 512, 64] and [1, 2048, 64] pieces. -/
theorem pay5_apply (v20 : Vec Ideal S1x512x64 .bf16) (v22 : Vec Ideal S1x2048x64 .bf16) (p : Fin 512) (kk : Fin 2048) :
    k3_pay5 (F := Ideal) v20 v22 (ix2 p kk) = (∑ j : Fin 64, v20 (ix3 (0 : Fin 1) p j) * v22 (ix3 (0 : Fin 1) kk j)) * cEighth := by
  unfold k3_pay5
  refine (scores_apply _ _ p kk).trans ?_
  refine congrArg (· * cEighth) (Finset.sum_congr rfl fun j _ => ?_)
  rw [shapeCast_1ab_ab_apply, shapeCast_1ab_ab_apply]

/-! ## A row's maximum and a row's sum -/

/-- The row maximum of a [512, 2048] array from -inf, at row p: the fold of `max` over the row. -/
theorem rowMax_apply (S : FVec Ideal S512x2048 .f32) (p : Fin 512) :
    multiReduction .maximumf [1] S512 S 0xFF800000#32 reduces_S512x2048_S512 (.inl rfl) rfl (ix1 p)
      = (Finset.univ : Finset (Fin 2048)).fold max ninf (fun kk => S (ix2 p kk)) :=
  (Ideal.multiReduction_maximumf_single S 0xFF800000#32 reduces_S512x2048_S512 (.inl rfl) rfl (ix1 p)).trans
    (congrArg ((Finset.univ : Finset (Fin 2048)).fold max ninf) (funext fun kk => congrArg S (funext fun a => Fin.ext (by
      match a with
      | ⟨0, _⟩ => rfl
      | ⟨1, _⟩ => rfl))))

/-- The row sum of a [512, 2048] array, at row p. -/
theorem rowSum_apply (S : FVec Ideal S512x2048 .f32) (p : Fin 512) :
    multiReduction .add [1] S512 S 0x00000000#32 reduces_S512x2048_S512 (.inl rfl) rfl (ix1 p) = ∑ kk : Fin 2048, S (ix2 p kk) :=
  (Ideal.multiReduction_add_single S 0x00000000#32 reduces_S512x2048_S512 (.inl rfl) rfl (ix1 p)).trans
    (Finset.sum_congr rfl fun kk _ => congrArg S (funext fun a => Fin.ext (by
      match a with
      | ⟨0, _⟩ => rfl
      | ⟨1, _⟩ => rfl)))

/-! ## From the scores to the head's output -/

/-- The weights of row p: the exponential of the scores shifted by the row's maximum. -/
theorem weights_apply (S : FVec Ideal S512x2048 .f32) (p : Fin 512) (kk : Fin 2048) :
    exp (subf S (broadcastTo S512x2048 (shapeCast S512x1 (multiReduction .maximumf [1] S512 S 0xFF800000#32 reduces_S512x2048_S512 (.inl rfl) rfl) shapeCasts_S512_S512x1) broadcasts_S512x1_S512x2048)) (ix2 p kk)
      = Ideal.exp (S (ix2 p kk) - (Finset.univ : Finset (Fin 2048)).fold max ninf (fun k' => S (ix2 p k'))) := by
  show Ideal.exp (S (ix2 p kk) - broadcastTo S512x2048 (shapeCast S512x1 (multiReduction .maximumf [1] S512 S 0xFF800000#32 reduces_S512x2048_S512 (.inl rfl) rfl) shapeCasts_S512_S512x1) broadcasts_S512x1_S512x2048 (ix2 p kk)) = _
  rw [Cert.Keepdims.broadcastTo_a1_ab_apply, Cert.Keepdims.shapeCast_a_a1_apply, rowMax_apply]

/-- The tail of a head: from the scaled scores `S` and the head's value columns `v1`, at (p, d). -/
theorem tail_apply (S : FVec Ideal S512x2048 .f32) (v1 : FVec Ideal S2048x64 .bf16) (p : Fin 512) (d : Fin 64) :
    divf (matmul dot_S512x2048_S2048x64_S512x64_1_0_0_1_n_n none (truncf .bf16 (exp (subf S (broadcastTo S512x2048 (shapeCast S512x1 (multiReduction .maximumf [1] S512 S 0xFF800000#32 reduces_S512x2048_S512 (.inl rfl) rfl) shapeCasts_S512_S512x1) broadcasts_S512x1_S512x2048))) bitsLt_bf16_f32) v1 (constant S512x64 .f32 0x00000000#32))
      (broadcastTo S512x64 (shapeCast S512x1 (multiReduction .add [1] S512 (exp (subf S (broadcastTo S512x2048 (shapeCast S512x1 (multiReduction .maximumf [1] S512 S 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x64) (ix2 p d)
      = sdpaS (fun kk => S (ix2 p kk)) (fun kk => v1 (ix2 kk d)) := by
  refine (divf_apply _ _ (ix2 p d)).trans ?_
  unfold sdpaS
  refine congrArg₂ Ideal.div ?_ ?_
  · refine (Cert.DenseLayer.matmul_zero_ix2 dot_S512x2048_S2048x64_S512x64_1_0_0_1_n_n rfl rfl rfl rfl dpv_l0 dpv_r1 _ _ p d).trans ?_
    refine Finset.sum_congr rfl fun kk _ => ?_
    refine congrArg (· * v1 (ix2 kk d)) ?_
    exact weights_apply S p kk
  · rw [Cert.Keepdims.broadcastTo_a1_ab_apply, Cert.Keepdims.shapeCast_a_a1_apply, rowSum_apply]
    exact Finset.sum_congr rfl fun kk _ => weights_apply S p kk

/-! ## The two heads -/

/-- The first head's stored piece at (z, p, d). -/
theorem head0_apply (qh : Vec Ideal S1x512x64 .bf16) (kh vh : Vec Ideal S1x2048x64 .bf16) (z : Fin 1) (p : Fin 512) (d : Fin 64) :
    k3_pay1 (F := Ideal) (k3_pay3 qh kh vh) (ix3 z p d)
      = sdpaS (fun kk => (∑ j : Fin 64, qh (ix3 (0 : Fin 1) p j) * kh (ix3 (0 : Fin 1) kk j)) * cEighth) (fun kk => vh (ix3 (0 : Fin 1) kk d)) := by
  unfold k3_pay1
  refine (shapeCast_ab_1ab_apply _ _ z p d).trans ?_
  show k3_pay3 (F := Ideal) qh kh vh (ix2 p d) = _
  unfold k3_pay3
  refine (tail_apply _ _ p d).trans ?_
  refine congrArg₂ sdpaS (funext fun kk => ?_) (funext fun kk => ?_)
  · refine (scores_apply _ _ p kk).trans ?_
    refine congrArg (· * cEighth) (Finset.sum_congr rfl fun j _ => ?_)
    rw [shapeCast_1ab_ab_apply, shapeCast_1ab_ab_apply]
  · exact shapeCast_1ab_ab_apply vh _ kk d

/-- The second head's stored piece at (z, p, d). -/
theorem head1_apply (qh : Vec Ideal S1x512x64 .bf16) (kh vh : Vec Ideal S1x2048x64 .bf16) (z : Fin 1) (p : Fin 512) (d : Fin 64) :
    k3_pay2 (F := Ideal) (k3_pay4 vh) (k3_pay5 qh kh) (k3_pay6 qh kh) (ix3 z p d)
      = sdpaS (fun kk => (∑ j : Fin 64, qh (ix3 (0 : Fin 1) p j) * kh (ix3 (0 : Fin 1) kk j)) * cEighth) (fun kk => vh (ix3 (0 : Fin 1) kk d)) := by
  unfold k3_pay2 k3_pay6
  refine (shapeCast_ab_1ab_apply _ _ z p d).trans ?_
  refine (tail_apply (k3_pay5 qh kh) (k3_pay4 vh) p d).trans ?_
  refine congrArg₂ sdpaS (funext fun kk => pay5_apply qh kh p kk) (funext fun kk => ?_)
  unfold k3_pay4
  exact shapeCast_1ab_ab_apply vh _ kk d

end Cert.KernelIdeal.AttnBody

end
-- ==== Proof.R3.lean ====
/-
  The attention region: the whole output array after the region, as one function of the three arrays it found.

  The grid is 4 batches x 8 head pairs x 4 tiles of 512 query rows. At point (b, hp, qi) the region loads query rows
  [512 qi, 512 qi + 512) of batch b in columns [128 hp, 128 hp + 128), all 2048 key and value rows of batch b in the same
  columns, and writes back the same rows and columns of the output, the two heads of the pair in its two halves of
  64 columns. Entry (b, s, e) of the output is therefore the attention of query row (b, s) over the key and value rows
  of batch b in the head of column e (`attnK`), and the 128 blocks tile the output.
-/
import proofs.«102316_j51908974739732_2_alg».proof.Proof.Gen.KernelIdeal.Frame
import proofs.«102316_j51908974739732_2_alg».proof.Proof.AttnBody
import Idealize.ShloMosaic.Lib.Pipeline.Value

set_option maxRecDepth 16384

noncomputable section

namespace Cert.KernelIdeal.R3

open Cert.KernelIdeal Cert.KernelIdeal.Gen Cert.KernelIdeal.AttnBody Cert.Mha
open Idealize.ShloMosaic Idealize.ShloMosaic.TcCoe Idealize.ShloMosaic.ValueIdx Idealize.SL.Sem
open Idealize.ShloMosaic.Pipeline (Dat)

/-- One head's output at row p and column d of the head is the attention function at (b, s, e), when the head's
    loaded pieces are the rows of the three arrays that (b, s, e) names: the query row (b, s) and the key rows of batch b
    in the columns of e's head, and column e of the value rows of batch b. -/
theorem piece_eq (Q K Vv : Act) (qh : S1x512x64.Idx → EReal) (kh vh : S1x2048x64.Idx → EReal)
    (b : Fin 4) (s : Fin 2048) (e : Fin 1024) (p : Fin 512) (d : Fin 64)
    (hq : ∀ j : Fin 64, qh (ix3 (0 : Fin 1) p j) = Q (ix3 b s (hcol e j)))
    (hk : ∀ (kk : Fin 2048) (j : Fin 64), kh (ix3 (0 : Fin 1) kk j) = K (ix3 b kk (hcol e j)))
    (hv : ∀ kk : Fin 2048, vh (ix3 (0 : Fin 1) kk d) = Vv (ix3 b kk e)) :
    sdpaS (fun kk => (∑ j : Fin 64, qh (ix3 (0 : Fin 1) p j) * kh (ix3 (0 : Fin 1) kk j)) * cEighth) (fun kk => vh (ix3 (0 : Fin 1) kk d))
      = attnKAt Q K Vv b s e := by
  rw [attnKAt_eq_sdpaS]
  refine congrArg₂ sdpaS (funext fun kk => ?_) (funext fun kk => hv kk)
  unfold scK dots
  refine congrArg (· * cEighth) (Finset.sum_congr rfl fun j _ => ?_)
  rw [hq j, hk kk j]

variable (V : (c : Dev nD) → (b : Ref sig .tc) → Buf (Elt Ideal) ((c : Thread nD τ).loc b))

/-- The printed index maps, decided over the grid: the query window moves with the output window; the key and value
    windows sit at the output's batch and column block, at row block 0. -/
theorem idx_facts : ∀ t : Fin cfg3.N,
    win3_0.index t (0 : Fin 3) = win3_3.index t (0 : Fin 3) ∧ win3_0.index t (1 : Fin 3) = win3_3.index t (1 : Fin 3) ∧ win3_0.index t (2 : Fin 3) = win3_3.index t (2 : Fin 3)
    ∧ win3_1.index t (0 : Fin 3) = win3_3.index t (0 : Fin 3) ∧ win3_1.index t (1 : Fin 3) = 0 ∧ win3_1.index t (2 : Fin 3) = win3_3.index t (2 : Fin 3)
    ∧ win3_2.index t (0 : Fin 3) = win3_3.index t (0 : Fin 3) ∧ win3_2.index t (1 : Fin 3) = 0 ∧ win3_2.index t (2 : Fin 3) = win3_3.index t (2 : Fin 3)
    ∧ win3_3.index t (0 : Fin 3) ≤ 3 ∧ win3_3.index t (1 : Fin 3) ≤ 3 ∧ win3_3.index t (2 : Fin 3) ≤ 7 :=
  (by decide +kernel : ∀ t : Fin grid3.N, _)

/-- Every block of the output is some point's. -/
theorem idx_onto : ∀ (q0 : Fin 4) (q1 : Fin 4) (q2 : Fin 8), ∃ t : Fin cfg3.N, win3_3.index t = ![q0.val, q1.val, q2.val] :=
  (by decide +kernel : ∀ (q0 : Fin 4) (q1 : Fin 4) (q2 : Fin 8), ∃ t : Fin grid3.N, win3_3.index t = ![q0.val, q1.val, q2.val])

/-- What point t writes back is block t of the attention of the three arrays as the region finds them. -/
theorem flushed_eq (c : Dev nD) (t : Fin cfg3.N) :
    (dat3 V c).flushed 3 t = ((cfg3.win 3).blk t).view.read (Elt Ideal) (attnK (V c main_v4) (V c main_v6) (V c main_v8)) := by
  show (cfg3.win 3).cut (grid3.coords t) ((dat3 V c).after 3 t) = _
  rw [after3_3]
  unfold out3_3
  obtain ⟨e00, e01, e02, e10, e11, e12, e20, e21, e22, b0, b1, b2⟩ := idx_facts t
  funext y
  show _ = attnK (V c main_v4) (V c main_v6) (V c main_v8) (((cfg3.win 3).blk t).view.emb y)
  refine View.canon_apply_of_pieces (Val := Elt Ideal) (fun y => attnK (V c main_v4) (V c main_v6) (V c main_v8) (((cfg3.win 3).blk t).view.emb y)) _ ?_ y (cover3_3 _ _ y)
  intro pc hpc x
  rcases List.mem_cons.mp hpc with rfl | hpc
  · -- the second head: columns [64, 128) of the block
    obtain ⟨z, p, d, rfl⟩ : ∃ (z : Fin 1) (p : Fin 512) (d : Fin 64), x = ix3 z p d := ⟨x 0, x 1, x 2, eq_ix3 x⟩
    refine (head1_apply _ _ _ z p d).trans ?_
    refine piece_eq _ _ _ _ _ _ _ _ _ p d (fun j => ?_) (fun kk j => ?_) (fun kk => ?_)
    · show V c main_v4 (((cfg3.win 0).blk t).view.emb (r3_2.emb (ix3 (0 : Fin 1) p j))) = _
      refine congrArg (V c main_v4) (funext fun a => Fin.ext ?_)
      have hz : z.val = 0 := by omega
      have := j.isLt; have := d.isLt
      match a with
      | ⟨0, _⟩ => show win3_0.index t (0 : Fin 3) * 1 + 1 * (0 + 1 * 0) = win3_3.index t (0 : Fin 3) * 1 + 1 * (0 + 1 * z.val); omega
      | ⟨1, _⟩ => show win3_0.index t (1 : Fin 3) * 512 + 1 * (0 + 1 * p.val) = win3_3.index t (1 : Fin 3) * 512 + 1 * (0 + 1 * p.val); omega
      | ⟨2, _⟩ => show win3_0.index t (2 : Fin 3) * 128 + 1 * (64 + 1 * j.val) = (win3_3.index t (2 : Fin 3) * 128 + 1 * (64 + 1 * d.val)) / 64 * 64 + j.val; omega
    · show V c main_v6 (((cfg3.win 1).blk t).view.emb (r3_3.emb (ix3 (0 : Fin 1) kk j))) = _
      refine congrArg (V c main_v6) (funext fun a => Fin.ext ?_)
      have hz : z.val = 0 := by omega
      have := j.isLt; have := d.isLt
      match a with
      | ⟨0, _⟩ => show win3_1.index t (0 : Fin 3) * 1 + 1 * (0 + 1 * 0) = win3_3.index t (0 : Fin 3) * 1 + 1 * (0 + 1 * z.val); omega
      | ⟨1, _⟩ => show win3_1.index t (1 : Fin 3) * 2048 + 1 * (0 + 1 * kk.val) = kk.val; omega
      | ⟨2, _⟩ => show win3_1.index t (2 : Fin 3) * 128 + 1 * (64 + 1 * j.val) = (win3_3.index t (2 : Fin 3) * 128 + 1 * (64 + 1 * d.val)) / 64 * 64 + j.val; omega
    · show V c main_v8 (((cfg3.win 2).blk t).view.emb (r3_3.emb (ix3 (0 : Fin 1) kk d))) = _
      refine congrArg (V c main_v8) (funext fun a => Fin.ext ?_)
      have hz : z.val = 0 := by omega
      match a with
      | ⟨0, _⟩ => show win3_2.index t (0 : Fin 3) * 1 + 1 * (0 + 1 * 0) = win3_3.index t (0 : Fin 3) * 1 + 1 * (0 + 1 * z.val); omega
      | ⟨1, _⟩ => show win3_2.index t (1 : Fin 3) * 2048 + 1 * (0 + 1 * kk.val) = kk.val; omega
      | ⟨2, _⟩ => show win3_2.index t (2 : Fin 3) * 128 + 1 * (64 + 1 * d.val) = win3_3.index t (2 : Fin 3) * 128 + 1 * (64 + 1 * d.val); omega
  · -- the first head: columns [0, 64) of the block
    rcases List.mem_cons.mp hpc with rfl | hpc
    · obtain ⟨z, p, d, rfl⟩ : ∃ (z : Fin 1) (p : Fin 512) (d : Fin 64), x = ix3 z p d := ⟨x 0, x 1, x 2, eq_ix3 x⟩
      refine (head0_apply _ _ _ z p d).trans ?_
      refine piece_eq _ _ _ _ _ _ _ _ _ p d (fun j => ?_) (fun kk j => ?_) (fun kk => ?_)
      · show V c main_v4 (((cfg3.win 0).blk t).view.emb (r3_0.emb (ix3 (0 : Fin 1) p j))) = _
        refine congrArg (V c main_v4) (funext fun a => Fin.ext ?_)
        have hz : z.val = 0 := by omega
        have := j.isLt; have := d.isLt
        match a with
        | ⟨0, _⟩ => show win3_0.index t (0 : Fin 3) * 1 + 1 * (0 + 1 * 0) = win3_3.index t (0 : Fin 3) * 1 + 1 * (0 + 1 * z.val); omega
        | ⟨1, _⟩ => show win3_0.index t (1 : Fin 3) * 512 + 1 * (0 + 1 * p.val) = win3_3.index t (1 : Fin 3) * 512 + 1 * (0 + 1 * p.val); omega
        | ⟨2, _⟩ => show win3_0.index t (2 : Fin 3) * 128 + 1 * (0 + 1 * j.val) = (win3_3.index t (2 : Fin 3) * 128 + 1 * (0 + 1 * d.val)) / 64 * 64 + j.val; omega
      · show V c main_v6 (((cfg3.win 1).blk t).view.emb (r3_1.emb (ix3 (0 : Fin 1) kk j))) = _
        refine congrArg (V c main_v6) (funext fun a => Fin.ext ?_)
        have hz : z.val = 0 := by omega
        have := j.isLt; have := d.isLt
        match a with
        | ⟨0, _⟩ => show win3_1.index t (0 : Fin 3) * 1 + 1 * (0 + 1 * 0) = win3_3.index t (0 : Fin 3) * 1 + 1 * (0 + 1 * z.val); omega
        | ⟨1, _⟩ => show win3_1.index t (1 : Fin 3) * 2048 + 1 * (0 + 1 * kk.val) = kk.val; omega
        | ⟨2, _⟩ => show win3_1.index t (2 : Fin 3) * 128 + 1 * (0 + 1 * j.val) = (win3_3.index t (2 : Fin 3) * 128 + 1 * (0 + 1 * d.val)) / 64 * 64 + j.val; omega
      · show V c main_v8 (((cfg3.win 2).blk t).view.emb (r3_1.emb (ix3 (0 : Fin 1) kk d))) = _
        refine congrArg (V c main_v8) (funext fun a => Fin.ext ?_)
        have hz : z.val = 0 := by omega
        match a with
        | ⟨0, _⟩ => show win3_2.index t (0 : Fin 3) * 1 + 1 * (0 + 1 * 0) = win3_3.index t (0 : Fin 3) * 1 + 1 * (0 + 1 * z.val); omega
        | ⟨1, _⟩ => show win3_2.index t (1 : Fin 3) * 2048 + 1 * (0 + 1 * kk.val) = kk.val; omega
        | ⟨2, _⟩ => show win3_2.index t (2 : Fin 3) * 128 + 1 * (0 + 1 * d.val) = win3_3.index t (2 : Fin 3) * 128 + 1 * (0 + 1 * d.val); omega
    · exact absurd hpc (List.not_mem_nil)

/-- An index of the output array is in point t's block iff each coordinate is in the block's range on its axis. -/
theorem mem_blk (t : Fin cfg3.N) (i : S4x2048x1024.Idx) :
    i ∈ ((cfg3.win 3).blk t).view.set ↔ ∀ a : Fin 3, win3_3.index t a * S1x512x128.size a ≤ (i a).val ∧ (i a).val < win3_3.index t a * S1x512x128.size a + S1x512x128.size a := by
  show i ∈ ((View.whole main_v9).slice (win3_3.rect t)).set ↔ _
  rw [View.set_slice_whole, Rect.mem_set_unit]
  exact Iff.rfl

/-- The blocks cover the output array: (b, s, e) is in the block of batch b, row tile s / 512, head pair e / 128. -/
theorem cover (i : S4x2048x1024.Idx) : ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, by omega⟩ ⟨(i 1).val / 512, by omega⟩ ⟨(i 2).val / 128, by omega⟩
  have q0 : win3_3.index t (0 : Fin 3) = (i 0).val := congrFun ht 0
  have q1 : win3_3.index t (1 : Fin 3) = (i 1).val / 512 := congrFun ht 1
  have q2 : win3_3.index t (2 : Fin 3) = (i 2).val / 128 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 128 ≤ (i 2).val ∧ (i 2).val < win3_3.index t (2 : Fin 3) * 128 + 128; omega

/-- The output array after the region. -/
theorem final (c : Dev nD) : (dat3 V c).arrAt 3 cfg3.N = attnK (V c main_v4) (V c main_v6) (V c main_v8) :=
  (dat3 V c).arrAt_eq_of_cover 3 (attnK (V c main_v4) (V c main_v6) (V c main_v8)) (fun t _ => flushed_eq V c t) cover

end Cert.KernelIdeal.R3

end
-- ==== Proof.R4.lean ====
/-
  Linear region 4: the whole output array after the region, as one function of the arrays it found.

  The region walks 8 row blocks of 1024 rows. At block t it loads rows [1024 t, 1024 t + 1024) of the activation
  array and the whole weight array, and writes back the same rows of the output: entry (r, e) of the output is the
  inner product of row r of the activations with row e of the weights (`linFlat`). The 8 blocks tile the output, so
  after the region the array holds `linFlat` everywhere.
-/
import proofs.«102316_j51908974739732_2_alg».proof.Proof.Gen.KernelIdeal.Frame
import proofs.«102316_j51908974739732_2_alg».proof.Proof.LinBody
import Idealize.ShloMosaic.Lib.Pipeline.Value

set_option maxRecDepth 16384

noncomputable section

namespace Cert.KernelIdeal.R4

open Cert.KernelIdeal Cert.KernelIdeal.Gen Cert.KernelIdeal.LinBody
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the activation and output windows sit at row block t and column
    block 0, the weight window at block (0, 0). -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 7 :=
  (by decide +kernel : ∀ t : Fin grid4.N, _)

/-- Every row block is some point's. -/
theorem idx_onto : ∀ (q0 : Fin 8), ∃ t : Fin cfg4.N, win4_2.index t = ![q0.val, 0] :=
  (by decide +kernel : ∀ (q0 : Fin 8), ∃ t : Fin grid4.N, win4_2.index t = ![q0.val, 0])

/-- What point t writes back is block t of `linFlat` of the two arrays as the region finds them. -/
theorem flushed_eq (c : Dev nD) (t : Fin cfg4.N) :
    (dat4 V c).flushed 2 t = ((cfg4.win 2).blk t).view.read (Elt Ideal) (linFlat (V c main_v10) (V c main_arg6)) := by
  show (cfg4.win 2).cut (grid4.coords t) ((dat4 V c).after 2 t) = _
  rw [after4_2]
  unfold out4_2
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  refine (pay4_apply (iblk4 V c 0 t) (iblk4 V c 1 t) p q).trans ?_
  show _ = linFlat (V c main_v10) (V c main_arg6) (((cfg4.win 2).blk t).view.emb (ix2 p q))
  unfold linFlat
  refine Finset.sum_congr rfl fun d _ => ?_
  have h0 : iblk4 V c 0 t (ix2 p d) = V c main_v10 (ix2 ((((cfg4.win 2).blk t).view.emb (ix2 p q)) 0) d) := by
    show V c main_v10 (((cfg4.win 0).blk t).view.emb (ix2 p d)) = _
    refine congrArg (V c main_v10) ?_
    funext a; apply Fin.ext
    match a with
    | ⟨0, _⟩ => show win4_0.index t (0 : Fin 2) * 1024 + 1 * p.val = win4_2.index t (0 : Fin 2) * 1024 + 1 * p.val; omega
    | ⟨1, _⟩ => show win4_0.index t (1 : Fin 2) * 1024 + 1 * d.val = d.val; omega
  have h1 : iblk4 V c 1 t (ix2 q d) = V c main_arg6 (ix2 ((((cfg4.win 2).blk t).view.emb (ix2 p q)) 1) d) := by
    show V c main_arg6 (((cfg4.win 1).blk t).view.emb (ix2 q d)) = _
    refine congrArg (V c main_arg6) ?_
    funext a; apply Fin.ext
    match a with
    | ⟨0, _⟩ => show win4_1.index t (0 : Fin 2) * 1024 + 1 * q.val = win4_2.index t (1 : Fin 2) * 1024 + 1 * q.val; omega
    | ⟨1, _⟩ => show win4_1.index t (1 : Fin 2) * 1024 + 1 * d.val = d.val; omega
  rw [h0, h1]

/-- An index of the output array is in point t's block iff each coordinate is in the block's range on its axis. -/
theorem mem_blk (t : Fin cfg4.N) (i : S8192x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v11).slice (win4_2.rect t)).set ↔ _
  rw [View.set_slice_whole, Rect.mem_set_unit]
  exact Iff.rfl

/-- The blocks cover the output array: row r is in block r / 1024. -/
theorem cover (i : S8192x1024.Idx) : ∃ t : Fin cfg4.N, (cfg4.win 2).flush t = true ∧ i ∈ ((cfg4.win 2).blk t).view.set := by
  have hi0 : (i 0).val < 8192 := (i 0).isLt
  have hi1 : (i 1).val < 1024 := (i 1).isLt
  obtain ⟨t, ht⟩ := idx_onto ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The output array after the region. -/
theorem final (c : Dev nD) : (dat4 V c).arrAt 2 cfg4.N = linFlat (V c main_v10) (V c main_arg6) :=
  (dat4 V c).arrAt_eq_of_cover 2 (linFlat (V c main_v10) (V c main_arg6)) (fun t _ => flushed_eq V c t) cover

end Cert.KernelIdeal.R4

end
-- ==== Proof.Chain.lean ====
/-
  The kernel program's result array, as one function of its argument arrays. Following @main: the three activation
  arrays are viewed flat; three linear regions project them (the results viewed back as arrays are `proj q W_q`,
  `proj k W_k`, `proj v W_v`); the attention region turns the three projections into `attnK` of them; the last linear
  region projects that, viewed flat, by W_o, and the result is viewed back as an array: `mhaK` of the seven arguments.
-/
import proofs.«102316_j51908974739732_2_alg».proof.Proof.Gen.KernelIdeal.Frame
import proofs.«102316_j51908974739732_2_alg».proof.Proof.ChainKeep
import proofs.«102316_j51908974739732_2_alg».proof.Proof.Flat
import proofs.«102316_j51908974739732_2_alg».proof.Proof.R0
import proofs.«102316_j51908974739732_2_alg».proof.Proof.R1
import proofs.«102316_j51908974739732_2_alg».proof.Proof.R2
import proofs.«102316_j51908974739732_2_alg».proof.Proof.R3
import proofs.«102316_j51908974739732_2_alg».proof.Proof.R4
import Idealize.ShloMosaic.Lib.StableHlo.Run

set_option maxRecDepth 16384

noncomputable section

namespace Cert.KernelIdeal.Chain

open Cert.KernelIdeal Cert.KernelIdeal.Gen Cert.KernelIdeal.LinBody Cert.KernelIdeal.Flat Cert.KernelIdeal.Keep Cert.Mha
open Idealize.ShloMosaic Idealize.ShloMosaic.TcCoe Idealize.ShloMosaic.Tactic Idealize.SL.Sem

variable (m : (ℓ : Loc nD τ sig) → Buf (Elt Ideal) ℓ) (ρ : Dev nD → PrngReg)

/-! ## The flat views of the three activation arguments, and the weights as the regions find them -/

theorem v0_eq (c : Dev nD) : V1 m ρ c main_v0 = shapeCast S8192x1024 (m ((c : Thread nD τ).loc main_arg0)) shapeCasts_S4x2048x1024_S8192x1024 := by
  show StableHlo.after hostOps0 (W0 m ρ c) (Proc.devRef .tc main_v0) = _
  after_results
  rfl
theorem v1_eq (c : Dev nD) : W1 m ρ c (Proc.devRef .tc main_v1) = shapeCast S8192x1024 (m ((c : Thread nD τ).loc main_arg1)) shapeCasts_S4x2048x1024_S8192x1024 := by
  show StableHlo.after hostOps0 (W0 m ρ c) (Proc.devRef .tc main_v1) = _
  after_results
  rfl
theorem v2_eq (c : Dev nD) : W1 m ρ c (Proc.devRef .tc main_v2) = shapeCast S8192x1024 (m ((c : Thread nD τ).loc main_arg2)) shapeCasts_S4x2048x1024_S8192x1024 := by
  show StableHlo.after hostOps0 (W0 m ρ c) (Proc.devRef .tc main_v2) = _
  after_results
  rfl

/-! ## The three projections -/

/-- The projected queries, as the attention region will find them. -/
theorem q_eq (c : Dev nD) : W3 m ρ c (Proc.devRef .tc main_v4) = proj (m ((c : Thread nD τ).loc main_arg0)) (m ((c : Thread nD τ).loc main_arg3)) := by
  have h3 : W2 m ρ c (Proc.devRef .tc main_v3) = linFlat (V1 m ρ c main_v0) (V1 m ρ c main_arg3) :=
    (W2_arr m ρ c 2).trans (R0.final (V1 m ρ) c)
  have h4 : W3 m ρ c (Proc.devRef .tc main_v4) = shapeCast S4x2048x1024 (W2 m ρ c (Proc.devRef .tc main_v3)) shapeCasts_S8192x1024_S4x2048x1024 := by
    show StableHlo.after hostOps1 (W2 m ρ c) (Proc.devRef .tc main_v4) = _
    after_results
    rfl
  rw [h4, h3, v0_eq, show V1 m ρ c main_arg3 = m ((c : Thread nD τ).loc main_arg3) from keep_main_arg3_1_0 m ρ c]
  exact unflat_lin_flat _ _ _ _

/-- The projected keys. -/
theorem k_eq (c : Dev nD) : W5 m ρ c (Proc.devRef .tc main_v6) = proj (m ((c : Thread nD τ).loc main_arg1)) (m ((c : Thread nD τ).loc main_arg4)) := by
  have h3 : W4 m ρ c (Proc.devRef .tc main_v5) = linFlat (V3 m ρ c main_v1) (V3 m ρ c main_arg4) :=
    (W4_arr m ρ c 2).trans (R1.final (V3 m ρ) c)
  have h4 : W5 m ρ c (Proc.devRef .tc main_v6) = shapeCast S4x2048x1024 (W4 m ρ c (Proc.devRef .tc main_v5)) shapeCasts_S8192x1024_S4x2048x1024 := by
    show StableHlo.after hostOps2 (W4 m ρ c) (Proc.devRef .tc main_v6) = _
    after_results
    rfl
  rw [h4, h3, show V3 m ρ c main_v1 = _ from (keep_main_v1_3_1 m ρ c).trans (v1_eq m ρ c),
    show V3 m ρ c main_arg4 = m ((c : Thread nD τ).loc main_arg4) from keep_main_arg4_3_0 m ρ c]
  exact unflat_lin_flat _ _ _ _

/-- The projected values. -/
theorem v_eq (c : Dev nD) : W7 m ρ c (Proc.devRef .tc main_v8) = proj (m ((c : Thread nD τ).loc main_arg2)) (m ((c : Thread nD τ).loc main_arg5)) := by
  have h3 : W6 m ρ c (Proc.devRef .tc main_v7) = linFlat (V5 m ρ c main_v2) (V5 m ρ c main_arg5) :=
    (W6_arr m ρ c 2).trans (R2.final (V5 m ρ) c)
  have h4 : W7 m ρ c (Proc.devRef .tc main_v8) = shapeCast S4x2048x1024 (W6 m ρ c (Proc.devRef .tc main_v7)) shapeCasts_S8192x1024_S4x2048x1024 := by
    show StableHlo.after hostOps3 (W6 m ρ c) (Proc.devRef .tc main_v8) = _
    after_results
    rfl
  rw [h4, h3, show V5 m ρ c main_v2 = _ from (keep_main_v2_5_1 m ρ c).trans (v2_eq m ρ c),
    show V5 m ρ c main_arg5 = m ((c : Thread nD τ).loc main_arg5) from keep_main_arg5_5_0 m ρ c]
  exact unflat_lin_flat _ _ _ _

/-! ## Attention, and the output projection -/

/-- The attention region's output. -/
theorem attn_eq (c : Dev nD) : W8 m ρ c (Proc.devRef .tc main_v9)
    = attnK (proj (m ((c : Thread nD τ).loc main_arg0)) (m ((c : Thread nD τ).loc main_arg3)))
        (proj (m ((c : Thread nD τ).loc main_arg1)) (m ((c : Thread nD τ).loc main_arg4)))
        (proj (m ((c : Thread nD τ).loc main_arg2)) (m ((c : Thread nD τ).loc main_arg5))) := by
  have h : W8 m ρ c (Proc.devRef .tc main_v9) = attnK (V7 m ρ c main_v4) (V7 m ρ c main_v6) (V7 m ρ c main_v8) :=
    (W8_arr m ρ c 3).trans (R3.final (V7 m ρ) c)
  rw [h, show V7 m ρ c main_v4 = _ from (keep_main_v4_7_3 m ρ c).trans (q_eq m ρ c),
    show V7 m ρ c main_v6 = _ from (keep_main_v6_7_5 m ρ c).trans (k_eq m ρ c),
    show V7 m ρ c main_v8 = _ from v_eq m ρ c]

/-- THE RESULT: the program's result array is the kernel's spelling of multi-head attention of its arguments. -/
theorem result_eq (c : Dev nD) : W11 m ρ c (Proc.devRef .tc main_v12)
    = mhaK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h10 : V9 m ρ c main_v10 = shapeCast S8192x1024 (W8 m ρ c (Proc.devRef .tc main_v9)) shapeCasts_S4x2048x1024_S8192x1024 := by
    show StableHlo.after hostOps4 (W8 m ρ c) (Proc.devRef .tc main_v10) = _
    after_results
    rfl
  have h11 : W10 m ρ c (Proc.devRef .tc main_v11) = linFlat (V9 m ρ c main_v10) (V9 m ρ c main_arg6) :=
    (W10_arr m ρ c 2).trans (R4.final (V9 m ρ) c)
  have h12 : W11 m ρ c (Proc.devRef .tc main_v12) = shapeCast S4x2048x1024 (W10 m ρ c (Proc.devRef .tc main_v11)) shapeCasts_S8192x1024_S4x2048x1024 := by
    show StableHlo.after hostOps5 (W10 m ρ c) (Proc.devRef .tc main_v12) = _
    after_results
    rfl
  rw [h12, h11, h10, attn_eq, show V9 m ρ c main_arg6 = m ((c : Thread nD τ).loc main_arg6) from keep_main_arg6_9_0 m ρ c]
  exact unflat_lin_flat _ _ _ _

end Cert.KernelIdeal.Chain

end
-- ==== Proof.RefSpec.lean ====
/-
  The reference program's result is multi-head attention in the reference's spelling (`mhaR`), index by index, on
  the extended reals, with no hypothesis on the inputs: every step below is a reading of one operation at an index,
  and no law of arithmetic beyond `0 + x = x` is used.

  The program: three linear layers (queries, keys, values); each [4, 2048, 1024] result viewed as [4, 2048, 16, 64]
  and its two middle axes exchanged, so that head `h` of row (b, s) holds columns `h * 64 + d`, d < 64; the scores
  of a query row against every key row of the same batch and head (an inner product over the head's 64 columns),
  divided by 8; along the key axis the maximum of -inf and the row maximum taken from -inf, the exponential of the
  difference, the sum of those weights from 0, and each weight divided by that sum; the weighted sum of the value
  rows; the heads merged back to width 1024; and the output linear layer.

  Column `e` of the model width sits in head `e / 64` at position `e % 64`, and `(e / 64) * 64 + e % 64 = e`: each
  lemma about a per-head array is therefore stated at head `e / 64`, for an arbitrary column `e`, which is how the
  specification names a head.
-/
import proofs.«102316_j51908974739732_2_alg».proof.Proof.Spec
import proofs.«102316_j51908974739732_2_alg».proof.Proof.Gen.ReferenceIdeal.Read

noncomputable section

namespace Cert.Mha.Ref

open Cert.ReferenceIdeal Cert.ReferenceIdeal.Gen Cert.ReferenceIdeal.Read Idealize.ShloMosaic Idealize.ShloMosaic.ValueIdx

/-! ## A linear layer -/

/-- In the contraction of row (b, s) with weight row `e`, term `k` reads the activation at (b, s, k) … -/
theorem lidx_dense (b : Fin 4) (s : Fin 2048) (e k : Fin 1024) : lidx_main_v0 (ix3 b s e) k = ix3 b s k :=
  funext fun a => match a with | ⟨0, _⟩ => rfl | ⟨1, _⟩ => rfl | ⟨2, _⟩ => rfl
/-- … and the weight at (e, k). -/
theorem ridx_dense (b : Fin 4) (s : Fin 2048) (e k : Fin 1024) : ridx_main_v0 (ix3 b s e) k = ix2 e k :=
  funext fun a => match a with | ⟨0, _⟩ => rfl | ⟨1, _⟩ => rfl

/-- The contraction of the last axis of `x` with the last axis of `w` is the linear layer `proj x w`. -/
theorem dense_eq (x : (⟨S4x2048x1024, .f32⟩ : BufTy).Contents (Elt Ideal)) (w : (⟨S1024x1024, .f32⟩ : BufTy).Contents (Elt Ideal)) :
    val_main_v0 (F := Ideal) x w = proj x w := by
  funext i
  obtain ⟨b, s, e, rfl⟩ : ∃ (b : Fin 4) (s : Fin 2048) (e : Fin 1024), i = ix3 b s e := ⟨i 0, i 1, i 2, eq_ix3 i⟩
  refine (val_main_v0_apply x w _).trans ?_
  show _ = ∑ d : Fin 1024, x (ix3 b s d) * w (ix2 e d)
  refine Finset.sum_congr rfl fun k _ => ?_
  rw [lidx_dense, ridx_dense]

/-! ## Splitting the model width into heads -/

/-- Entry (b, h, s, d) of the head-split array is entry (b, s, h * 64 + d) of the layer's result: the flat position
    ((b * 2048 + s) * 16 + h) * 64 + d read back in [4, 2048, 1024]. -/
theorem heads_at (x : (⟨S4x2048x1024, .f32⟩ : BufTy).Contents (Elt Ideal)) (w : (⟨S1024x1024, .f32⟩ : BufTy).Contents (Elt Ideal))
    (b : Fin 4) (h : Fin 16) (s : Fin 2048) (d : Fin 64) :
    val_main_v4 (F := Ideal) x w (ix4 b h s d) = val_main_v0 (F := Ideal) x w (ix3 b s ⟨h.val * 64 + d.val, by omega⟩) := by
  rw [val_main_v4_apply, val_main_v3_apply]
  refine congrArg _ (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The keys and the values are laid out by the same two operations as the queries. -/
theorem heads1_eq (x : (⟨S4x2048x1024, .f32⟩ : BufTy).Contents (Elt Ideal)) (w : (⟨S1024x1024, .f32⟩ : BufTy).Contents (Elt Ideal)) :
    val_main_v6 (F := Ideal) x w = val_main_v4 (F := Ideal) x w := rfl
theorem heads2_eq (x : (⟨S4x2048x1024, .f32⟩ : BufTy).Contents (Elt Ideal)) (w : (⟨S1024x1024, .f32⟩ : BufTy).Contents (Elt Ideal)) :
    val_main_v8 (F := Ideal) x w = val_main_v4 (F := Ideal) x w := rfl

/-- In the head of column `e`, position `j` is column `hcol e j` of the linear layer. -/
theorem heads_col (x : (⟨S4x2048x1024, .f32⟩ : BufTy).Contents (Elt Ideal)) (w : (⟨S1024x1024, .f32⟩ : BufTy).Contents (Elt Ideal))
    (b : Fin 4) (s : Fin 2048) (e : Fin 1024) (j : Fin 64) :
    val_main_v4 (F := Ideal) x w (ix4 b ⟨e.val / 64, by omega⟩ s j) = proj x w (ix3 b s (hcol e j)) := by
  rw [heads_at, dense_eq]
  rfl

/-- In its own head, at its own position, column `e` is itself: (e / 64) * 64 + e % 64 = e. -/
theorem heads_own (x : (⟨S4x2048x1024, .f32⟩ : BufTy).Contents (Elt Ideal)) (w : (⟨S1024x1024, .f32⟩ : BufTy).Contents (Elt Ideal))
    (b : Fin 4) (s : Fin 2048) (e : Fin 1024) :
    val_main_v4 (F := Ideal) x w (ix4 b ⟨e.val / 64, by omega⟩ s ⟨e.val % 64, by omega⟩) = proj x w (ix3 b s e) := by
  rw [heads_at, dense_eq]
  exact congrArg (fun t => proj x w (ix3 b s t)) (Fin.ext (by show e.val / 64 * 64 + e.val % 64 = e.val; omega))

/-! ## The scaled scores -/

/-- Term `j` of the score of query row `s` against key row `kk` reads the query at (b, h, s, j) … -/
theorem lidx_scores (b : Fin 4) (h : Fin 16) (s kk : Fin 2048) (j : Fin 64) : lidx_main_v9 (ix4 b h s kk) j = ix4 b h s j :=
  funext fun a => match a with | ⟨0, _⟩ => rfl | ⟨1, _⟩ => rfl | ⟨2, _⟩ => rfl | ⟨3, _⟩ => rfl
/-- … and the key at (b, h, kk, j). -/
theorem ridx_scores (b : Fin 4) (h : Fin 16) (s kk : Fin 2048) (j : Fin 64) : ridx_main_v9 (ix4 b h s kk) j = ix4 b h kk j :=
  funext fun a => match a with | ⟨0, _⟩ => rfl | ⟨1, _⟩ => rfl | ⟨2, _⟩ => rfl | ⟨3, _⟩ => rfl

/-- The score divided by 8, in the head of column `e`: the inner product over the head's columns, over the word for 8. -/
theorem scores_at (x0 x1 : (⟨S4x2048x1024, .f32⟩ : BufTy).Contents (Elt Ideal)) (x3 x4 : (⟨S1024x1024, .f32⟩ : BufTy).Contents (Elt Ideal))
    (b : Fin 4) (s kk : Fin 2048) (e : Fin 1024) :
    val_main_v11 (F := Ideal) x0 x1 x3 x4 (ix4 b ⟨e.val / 64, by omega⟩ s kk) = scR (proj x0 x3) (proj x1 x4) b s e kk := by
  rw [val_main_v11_apply, val_main_v9_apply, val_main_v10_apply, val_main_cst_apply, Ideal.hostDivf_def, Ideal.ofBits_def]
  unfold scR dots cEight
  refine congrArg (fun t => Ideal.div t _) (Finset.sum_congr rfl fun j _ => ?_)
  rw [lidx_scores, ridx_scores, heads1_eq, heads_col, heads_col]

/-! ## The row maximum -/

/-- Dropping the last axis of [4, 16, 2048, 2048] leaves [4, 16, 2048]. -/
theorem red_last : S4x16x2048x2048.Reduces [3] S4x16x2048 := by decide

/-- The index over (b, h, s) whose coordinate on the dropped axis is `kk` is (b, h, s, kk). -/
theorem lift_last (b : Fin 4) (h : Fin 16) (s kk : Fin 2048) : red_last.lift (ix3 b h s) kk = ix4 b h s kk :=
  funext fun a => Fin.ext (match a with | ⟨0, _⟩ => rfl | ⟨1, _⟩ => rfl | ⟨2, _⟩ => rfl | ⟨3, _⟩ => rfl)

/-- The maximum of -inf with the fold of `max`, from -inf, of the scaled scores over the key rows. The maximum is
    commutative and associative, so the order in which the reduction visits the key rows does not matter. -/
theorem rowmax_at (x0 x1 : (⟨S4x2048x1024, .f32⟩ : BufTy).Contents (Elt Ideal)) (x3 x4 : (⟨S1024x1024, .f32⟩ : BufTy).Contents (Elt Ideal))
    (b : Fin 4) (s : Fin 2048) (e : Fin 1024) :
    val_main_v14 (F := Ideal) x0 x1 x3 x4 (ix3 b ⟨e.val / 64, by omega⟩ s) = mxR (proj x0 x3) (proj x1 x4) b s e := by
  rw [val_main_v14_apply, val_main_v13_apply, val_main_cst_1_apply, Ideal.maximumf_def, Ideal.ofBits_def]
  unfold mxR ninf
  refine congrArg (max _) ?_
  unfold val_main_v12
  refine (Host.reduce_eq_fold_single FloatOps.maximumf _ _ reducesTo_S4x16x2048x2048_S4x16x2048_d3 red_last h_S_ _).trans ?_
  have key : ∀ kk : Fin 2048, val_main_v11 (F := Ideal) x0 x1 x3 x4 (red_last.lift (ix3 b ⟨e.val / 64, by omega⟩ s) kk)
      = scR (proj x0 x3) (proj x1 x4) b s e kk := fun kk => by rw [lift_last, scores_at]
  exact Finset.fold_congr (s := (Finset.univ : Finset (Fin 2048))) fun kk _ => key kk

/-! ## The weights, their sum, and the normalised weights -/

/-- A per-row quantity repeated along the key axis is read at its row: (b, h, s, kk) reads (b, h, s). -/
theorem idx_keep_max (b : Fin 4) (h : Fin 16) (s kk : Fin 2048) : idx_main_v15 (idx_main_v16 (ix4 b h s kk)) = ix3 b h s :=
  funext fun a => match a with | ⟨0, _⟩ => rfl | ⟨1, _⟩ => rfl | ⟨2, _⟩ => rfl
theorem idx_keep_sum (b : Fin 4) (h : Fin 16) (s kk : Fin 2048) : idx_main_v20 (idx_main_v21 (ix4 b h s kk)) = ix3 b h s :=
  funext fun a => match a with | ⟨0, _⟩ => rfl | ⟨1, _⟩ => rfl | ⟨2, _⟩ => rfl
/-- Term `k` of the sum along the key axis at row (b, h, s) is entry (b, h, s, k). -/
theorem idx_row (b : Fin 4) (h : Fin 16) (s k : Fin 2048) : idx_main_v19 (ix3 b h s) k = ix4 b h s k :=
  funext fun a => match a with | ⟨0, _⟩ => rfl | ⟨1, _⟩ => rfl | ⟨2, _⟩ => rfl | ⟨3, _⟩ => rfl

/-- The weight of key row `kk`: the exponential of the scaled score minus the row maximum. -/
theorem weight_at (x0 x1 : (⟨S4x2048x1024, .f32⟩ : BufTy).Contents (Elt Ideal)) (x3 x4 : (⟨S1024x1024, .f32⟩ : BufTy).Contents (Elt Ideal))
    (b : Fin 4) (s kk : Fin 2048) (e : Fin 1024) :
    val_main_v18 (F := Ideal) x0 x1 x3 x4 (ix4 b ⟨e.val / 64, by omega⟩ s kk) = pR (proj x0 x3) (proj x1 x4) b s e kk := by
  rw [val_main_v18_apply, val_main_v17_apply, val_main_v16_apply, val_main_v15_apply, idx_keep_max, scores_at, rowmax_at,
    Ideal.hostUnary_exp_def, Ideal.subf_def]
  rfl

/-- The sum of a row's weights; it starts from the word for zero, which is 0. -/
theorem wsum_at (x0 x1 : (⟨S4x2048x1024, .f32⟩ : BufTy).Contents (Elt Ideal)) (x3 x4 : (⟨S1024x1024, .f32⟩ : BufTy).Contents (Elt Ideal))
    (b : Fin 4) (s : Fin 2048) (e : Fin 1024) :
    val_main_v19 (F := Ideal) x0 x1 x3 x4 (ix3 b ⟨e.val / 64, by omega⟩ s) = ∑ k' : Fin 2048, pR (proj x0 x3) (proj x1 x4) b s e k' := by
  rw [val_main_v19_apply, val_main_cst_2_apply, Ideal.ofBits_def, Ideal.ofBits_zero_f32, zero_add]
  refine Finset.sum_congr rfl fun k _ => ?_
  rw [idx_row, weight_at]

/-- Each weight divided by the sum of its row's weights. -/
theorem prob_at (x0 x1 : (⟨S4x2048x1024, .f32⟩ : BufTy).Contents (Elt Ideal)) (x3 x4 : (⟨S1024x1024, .f32⟩ : BufTy).Contents (Elt Ideal))
    (b : Fin 4) (s kk : Fin 2048) (e : Fin 1024) :
    val_main_v22 (F := Ideal) x0 x1 x3 x4 (ix4 b ⟨e.val / 64, by omega⟩ s kk)
      = Ideal.div (pR (proj x0 x3) (proj x1 x4) b s e kk) (∑ k' : Fin 2048, pR (proj x0 x3) (proj x1 x4) b s e k') := by
  rw [val_main_v22_apply, val_main_v21_apply, val_main_v20_apply, idx_keep_sum, weight_at, wsum_at, Ideal.hostDivf_def]

/-! ## The weighted sum of the value rows, heads merged back -/

/-- Term `k` of the weighted sum at (b, h, s, d) reads the normalised weight at (b, h, s, k) … -/
theorem lidx_av (b : Fin 4) (h : Fin 16) (s : Fin 2048) (d : Fin 64) (k : Fin 2048) : lidx_main_v23 (ix4 b h s d) k = ix4 b h s k :=
  funext fun a => match a with | ⟨0, _⟩ => rfl | ⟨1, _⟩ => rfl | ⟨2, _⟩ => rfl | ⟨3, _⟩ => rfl
/-- … and the value at (b, h, k, d). -/
theorem ridx_av (b : Fin 4) (h : Fin 16) (s : Fin 2048) (d : Fin 64) (k : Fin 2048) : ridx_main_v23 (ix4 b h s d) k = ix4 b h k d :=
  funext fun a => match a with | ⟨0, _⟩ => rfl | ⟨1, _⟩ => rfl | ⟨2, _⟩ => rfl | ⟨3, _⟩ => rfl

/-- Merging the heads back: entry (b, s, e) of the merged array is entry (b, e / 64, s, e % 64) of the per-head one —
    the flat position (b * 2048 + s) * 1024 + e read in [4, 2048, 16, 64], the two middle axes exchanged. -/
theorem idx_merge (b : Fin 4) (s : Fin 2048) (e : Fin 1024) :
    idx_main_v24 (idx_main_v25 (ix3 b s e)) = ix4 b ⟨e.val / 64, by omega⟩ s ⟨e.val % 64, by omega⟩ := by
  refine funext fun a => Fin.ext ?_
  have hb := b.isLt; have hs := s.isLt; have he := e.isLt
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The attention output before the last linear layer is `attnR` of the three linear layers. -/
theorem attn_eq (x0 x1 x2 : (⟨S4x2048x1024, .f32⟩ : BufTy).Contents (Elt Ideal)) (x3 x4 x5 : (⟨S1024x1024, .f32⟩ : BufTy).Contents (Elt Ideal)) :
    val_main_v25 (F := Ideal) x0 x1 x2 x3 x4 x5 = attnR (proj x0 x3) (proj x1 x4) (proj x2 x5) := by
  funext i
  obtain ⟨b, s, e, rfl⟩ : ∃ (b : Fin 4) (s : Fin 2048) (e : Fin 1024), i = ix3 b s e := ⟨i 0, i 1, i 2, eq_ix3 i⟩
  rw [val_main_v25_apply, val_main_v24_apply, idx_merge, val_main_v23_apply]
  show _ = ∑ kk : Fin 2048, Ideal.div (pR (proj x0 x3) (proj x1 x4) b s e kk) (∑ k' : Fin 2048, pR (proj x0 x3) (proj x1 x4) b s e k')
      * proj x2 x5 (ix3 b kk e)
  refine Finset.sum_congr rfl fun kk _ => ?_
  rw [lidx_av, ridx_av, prob_at, heads2_eq, heads_own]

/-! ## The whole layer -/

/-- The reference program's result is `mhaR` of its seven arguments: the last operation is the same contraction as
    the first, applied to the attention output and the output weights. -/
theorem ref_eq (x0 x1 x2 : (⟨Cert.ReferenceIdeal.S4x2048x1024, .f32⟩ : BufTy).Contents (Elt Ideal))
    (x3 x4 x5 x6 : (⟨Cert.ReferenceIdeal.S1024x1024, .f32⟩ : BufTy).Contents (Elt Ideal)) :
    Cert.ReferenceIdeal.Read.val_main_v26 (F := Ideal) x0 x1 x2 x3 x4 x5 x6 = Cert.Mha.mhaR x0 x1 x2 x3 x4 x5 x6 := by
  have h : val_main_v26 (F := Ideal) x0 x1 x2 x3 x4 x5 x6
      = val_main_v0 (F := Ideal) (val_main_v25 (F := Ideal) x0 x1 x2 x3 x4 x5) x6 := rfl
  rw [h, dense_eq, attn_eq]
  rfl

end Cert.Mha.Ref

end
-- ==== Proof.Algebra.lean ====
/-
  The kernel's spelling of attention equals the reference's when the queries and the keys are real-valued.

  The mathematics, over the extended reals:
  * the word for 1/8 denotes the real 1/8 and the word for 8 the real 8, so dividing a score by 8 is multiplying it
    by 1/8, at the infinities too: the two programs' scores agree for every extended real;
  * a running maximum is at least the value it starts from, so taking the maximum of -inf with the row maximum from
    -inf changes nothing: the row maxima, and therefore the weights, agree, again with no finiteness;
  * when the queries and keys are real, every score is real, the row maximum (over a nonempty set, from -inf) is
    real, every weight is the exponential of a real, and the sum of the weights is a POSITIVE real `l`;
  * dividing by a positive real `l` is multiplying by the nonnegative real `1 / l`, which distributes over a finite
    sum of ARBITRARY extended reals: dividing the weighted sum of the value rows once at the end equals weighting
    the value rows by the divided weights. The value rows need no hypothesis.
-/
import proofs.«102316_j51908974739732_2_alg».proof.Proof.Spec
import Mathlib.Data.EReal.Inv

noncomputable section

namespace Cert.Mha

open Idealize.ShloMosaic Idealize.ShloMosaic.ValueIdx

/-! ## The three words -/

/-- The word `0xFF800000` (sign set, exponent all ones, fraction zero) denotes `-∞`. -/
theorem ninf_eq : ninf = ⊥ := by
  simp [ninf, Ideal.ofBits, Ideal.ieee]

/-- The word `0x41000000` (exponent field 130, fraction zero) denotes `2 ^ 23 * 2 ^ (130 - 127 - 23) = 8`. -/
theorem cEight_eq : cEight = ((8 : ℝ) : EReal) := by
  simp [cEight, Ideal.ofBits, Ideal.ieee, -EReal.coe_mul]; norm_num

/-- The word `0x3E000000` (exponent field 124, fraction zero) denotes `2 ^ 23 * 2 ^ (124 - 127 - 23) = 1 / 8`. -/
theorem cEighth_eq : cEighth = ((1 / 8 : ℝ) : EReal) := by
  simp [cEighth, Ideal.ofBits, Ideal.ieee, -EReal.coe_mul]; norm_num

/-! ## Scalar facts over an abstract finite index set -/

section Scalar

variable {ι : Type}

/-- The coercion of a finite sum of reals is the sum of the coercions. -/
theorem coe_sum (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A product of two reals is real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is real. -/
theorem sum_real (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-- A running maximum is at least the value it starts from, so taking the maximum with that value again
    changes nothing. -/
theorem max_fold_max (s : Finset ι) (b : EReal) (f : ι → EReal) :
    max b (s.fold max b f) = s.fold max b f :=
  max_eq_right ((Finset.le_fold_max b).2 (Or.inl le_rfl))

/-- The maximum, from `-∞`, of a nonempty finite family of reals is real: it is `-∞` only over the empty family,
    and each step takes the larger of two values of which at least one is real and neither is `+∞`. -/
theorem fold_max_real (s : Finset ι) (hs : s.Nonempty) (f : ι → EReal) (hf : ∀ i, ∃ r : ℝ, f i = (r : EReal)) :
    ∃ r : ℝ, s.fold max ⊥ f = (r : EReal) := by
  classical
  induction s using Finset.induction_on with
  | empty => exact absurd hs Finset.not_nonempty_empty
  | insert a s ha ih =>
    rw [Finset.fold_insert ha]
    obtain ⟨ra, hra⟩ := hf a
    rcases s.eq_empty_or_nonempty with rfl | hne
    · exact ⟨ra, by rw [Finset.fold_empty, max_bot_right, hra]⟩
    · obtain ⟨r, hr⟩ := ih hne
      rcases max_choice (f a) (s.fold max ⊥ f) with h | h
      · exact ⟨ra, h.trans hra⟩
      · exact ⟨r, h.trans hr⟩

/-- The sum of the exponentials of a nonempty finite family of reals is a positive real. -/
theorem sum_exp_pos (s : Finset ι) (hs : s.Nonempty) (x : ι → ℝ) :
    ∃ l : ℝ, 0 < l ∧ ∑ i ∈ s, Ideal.exp ((x i : ℝ) : EReal) = (l : EReal) :=
  ⟨∑ i ∈ s, Real.exp (x i), Finset.sum_pos (fun i _ => Real.exp_pos (x i)) hs, by
    rw [coe_sum]; exact Finset.sum_congr rfl (fun i _ => Ideal.exp_coe (x i))⟩

/-- Multiplication by a nonnegative constant that is not `+∞` distributes over a finite sum of arbitrary
    extended reals. -/
theorem sum_mul_const (s : Finset ι) (g : ι → EReal) {c : EReal} (hc : 0 ≤ c) (hc' : c ≠ ⊤) :
    (∑ i ∈ s, g i) * c = ∑ i ∈ s, g i * c := by
  classical
  induction s using Finset.induction_on with
  | empty => simp
  | insert a s ha ih =>
    rw [Finset.sum_insert ha, Finset.sum_insert ha, EReal.right_distrib_of_nonneg_of_ne_top hc hc', ih]

/-- Division by a positive real `l` is multiplication by `1 / l ≥ 0`, so dividing a weighted sum once equals
    dividing each weight: `(∑ p i * v i) / l = ∑ (p i / l) * v i` for arbitrary extended reals `p i`, `v i`. -/
theorem div_sum (s : Finset ι) (p v : ι → EReal) {l : ℝ} (hl : 0 < l) :
    Ideal.div (∑ i ∈ s, p i * v i) (l : EReal) = ∑ i ∈ s, Ideal.div (p i) (l : EReal) * v i := by
  have hc : (0 : EReal) ≤ ((1 / l : ℝ) : EReal) := EReal.coe_nonneg.2 (by positivity)
  rw [Ideal.div_coe hl.ne', sum_mul_const s _ hc (EReal.coe_ne_top _)]
  refine Finset.sum_congr rfl (fun i _ => ?_)
  rw [Ideal.div_coe hl.ne', mul_right_comm]

end Scalar

/-! ## Scores, row maxima and weights agree for all extended reals -/

/-- Dividing by the word for 8 is multiplying by the word for 1/8. -/
theorem scR_eq (Q K : Act) (b : Fin 4) (s : Fin 2048) (e : Fin 1024) (kk : Fin 2048) :
    scR Q K b s e kk = scK Q K b s e kk := by
  rw [scR, scK, cEight_eq, cEighth_eq]
  exact Ideal.div_coe (by norm_num) _

/-- The row maxima agree. -/
theorem mxR_eq (Q K : Act) (b : Fin 4) (s : Fin 2048) (e : Fin 1024) : mxR Q K b s e = mxK Q K b s e := by
  have h : (fun kk => scR Q K b s e kk) = fun kk => scK Q K b s e kk := funext (scR_eq Q K b s e)
  rw [mxR, mxK, max_fold_max, h]

/-- The weights agree. -/
theorem pR_eq (Q K : Act) (b : Fin 4) (s : Fin 2048) (e : Fin 1024) (kk : Fin 2048) :
    pR Q K b s e kk = pK Q K b s e kk := by
  rw [pR, pK, scR_eq, mxR_eq]

/-! ## Real queries and keys give real scores and a real row maximum -/

theorem dots_real (Q K : Act) (hQ : IsReal Q) (hK : IsReal K) (b : Fin 4) (s : Fin 2048) (e : Fin 1024)
    (kk : Fin 2048) : ∃ r : ℝ, dots Q K b s e kk = (r : EReal) :=
  sum_real _ _ (fun _ => mul_real (hQ _) (hK _))

theorem scK_real (Q K : Act) (hQ : IsReal Q) (hK : IsReal K) (b : Fin 4) (s : Fin 2048) (e : Fin 1024)
    (kk : Fin 2048) : ∃ r : ℝ, scK Q K b s e kk = (r : EReal) := by
  rw [scK, cEighth_eq]
  exact mul_real (dots_real Q K hQ hK b s e kk) ⟨_, rfl⟩

theorem mxK_real (Q K : Act) (hQ : IsReal Q) (hK : IsReal K) (b : Fin 4) (s : Fin 2048) (e : Fin 1024) :
    ∃ r : ℝ, mxK Q K b s e = (r : EReal) := by
  rw [mxK, ninf_eq]
  exact fold_max_real _ Finset.univ_nonempty _ (fun kk => scK_real Q K hQ hK b s e kk)

/-! ## The two spellings of attention agree -/

theorem attnAt_eq (Q K V : Act) (hQ : IsReal Q) (hK : IsReal K) (b : Fin 4) (s : Fin 2048) (e : Fin 1024) :
    attnKAt Q K V b s e = attnRAt Q K V b s e := by
  obtain ⟨m, hm⟩ := mxK_real Q K hQ hK b s e
  choose x hx using fun kk => scK_real Q K hQ hK b s e kk
  -- every weight is the exponential of a real, so their sum is a positive real `l`
  have hp : ∀ kk, pK Q K b s e kk = Ideal.exp ((x kk - m : ℝ) : EReal) := fun kk => by
    rw [pK, hx, hm, EReal.coe_sub]
  obtain ⟨l, hl, hsum⟩ := sum_exp_pos (Finset.univ : Finset (Fin 2048)) Finset.univ_nonempty (fun kk => x kk - m)
  have hl' : ∑ kk : Fin 2048, pK Q K b s e kk = (l : EReal) := by
    rw [← hsum]; exact Finset.sum_congr rfl (fun kk _ => hp kk)
  rw [attnKAt, attnRAt]
  simp only [pR_eq]
  rw [hl']
  exact div_sum Finset.univ (fun kk => pK Q K b s e kk) (fun kk => V (ix3 b kk e)) hl

/-- A linear layer of real activations and real weights is real. -/
theorem projAt_real (x : Act) (w : Wt) (hx : IsReal x) (hw : IsReal w) (b : Fin 4) (s : Fin 2048) (e : Fin 1024) :
    ∃ r : ℝ, projAt x w b s e = (r : EReal) :=
  sum_real _ _ (fun _ => mul_real (hx _) (hw _))

theorem proj_isReal (x : Act) (w : Wt) (hx : IsReal x) (hw : IsReal w) : IsReal (proj x w) := fun i =>
  projAt_real x w hx hw (i 0) (i 1) (i 2)

/-- Attention in the kernel's spelling equals attention in the reference's, for real queries and keys. -/
theorem attn_eq (Q K V : Act) (hQ : IsReal Q) (hK : IsReal K) : attnK Q K V = attnR Q K V := by
  funext i
  exact attnAt_eq Q K V hQ hK (i 0) (i 1) (i 2)

/-- The whole layer: real inputs and real weights on the query and key sides make the projected queries and keys
    real, and then the two spellings of attention agree. -/
theorem mha_eq (q k v : Act) (wq wk wv wo : Wt) (hq : IsReal q) (hk : IsReal k) (hwq : IsReal wq)
    (hwk : IsReal wk) : mhaK q k v wq wk wv wo = mhaR q k v wq wk wv wo := by
  rw [mhaK, mhaR, attn_eq _ _ _ (proj_isReal q wq hq hwq) (proj_isReal k wk hk hwk)]

end Cert.Mha

end
-- ==== Proof.Finite.lean ====
/-
  From the precondition to "every entry of every input is a real number".

  The precondition is the conjunction, over the seven float inputs x, of "the reduction by and, over every axis, of the
  elementwise comparison |x| < +inf is 1". Over the extended reals |x| is max x (-x) and the word 0x7F800000 is the top
  element, so an entry whose comparison is 1 is neither the bottom nor the top element: it is a real number.
-/
import proofs.«102316_j51908974739732_2_alg».proof.Proof.Spec
import proofs.«102316_j51908974739732_2_alg».proof.Pre_finite_inputs
import Idealize.ShloMosaic.Lib.ReduceAll

noncomputable section

namespace Cert.Mha

open Idealize.ShloMosaic

/-- The f32 word 0x7F800000 denotes +inf, the top element of the extended reals. -/
theorem inf_word_eq_top : Ideal.ofBits .f32 0x7F800000#32 = (⊤ : EReal) := by
  simp [Ideal.ofBits, Ideal.ieee]

/-- An extended real x whose absolute value max x (-x) compares strictly below +inf is a real number:
    at the bottom and at the top element max x (-x) is the top element, which is not below itself. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [inf_word_eq_top] at h'
  unfold Ideal.cmp at h'
  have hlt : max (x : EReal) (-(x : EReal)) < ⊤ := by
    by_contra hn
    simp [hn] at h'
  induction x using EReal.rec with
  | bot => simp at hlt
  | coe r => exact ⟨r, rfl⟩
  | top => simp at hlt

/-- For an array x of any shape: when the reduction by "and", over every axis, of the elementwise comparison
    |x| < +inf is 1, each single comparison is 1, so every entry of x is a real number. -/
theorem isReal_of_all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    IsReal x := by
  -- The result of the reduction has rank 0, hence exactly one index.
  haveI : Subsingleton Cert.Pre_finite_inputs.S_.Idx := ⟨fun a b => funext fun d => d.elim0⟩
  intro i
  have hi := Host.reduce_andi_all _ _ hr hu _ e i
  exact real_of_abs_lt_inf (x i) hi

/-- An elementwise "and" of two one-bit arrays that is 1 at an index has both operands 1 there. -/
theorem andi_apply_eq_one {s : Shape} (A B : IVec s 1) (j : s.Idx) (h : andi A B j = 1#1) :
    A j = 1#1 ∧ B j = 1#1 :=
  IntOp.andi_eq_one.1 h

/-- The precondition holds (its one-bit result is 1) only if every entry of each of the seven inputs is a real number:
    split the six-fold conjunction into the seven reductions and read each one back. -/
theorem isReal_of_pre [Cert.Pre_finite_inputs.Facts]
    (a0 a1 a2 : FVec Ideal Cert.Pre_finite_inputs.S4x2048x1024 .f32) (a3 a4 a5 a6 : FVec Ideal Cert.Pre_finite_inputs.S1024x1024 .f32)
    (h : Cert.Pre_finite_inputs.fn (F := Ideal) a0 a1 a2 a3 a4 a5 a6 = fun _ => 1#1) :
    IsReal (a0 : Act) ∧ IsReal (a1 : Act) ∧ IsReal (a2 : Act) ∧ IsReal (a3 : Wt) ∧ IsReal (a4 : Wt) ∧ IsReal (a5 : Wt) ∧ IsReal (a6 : Wt) := by
  have h0 := congrFun h ValueIdx.ix0
  dsimp only [Cert.Pre_finite_inputs.fn, Cert.Pre_finite_inputs.fn_part1] at h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨isReal_of_all_lt_inf a0 _ _ _ e0, isReal_of_all_lt_inf a1 _ _ _ e1, isReal_of_all_lt_inf a2 _ _ _ e2,
    isReal_of_all_lt_inf a3 _ _ _ e3, isReal_of_all_lt_inf a4 _ _ _ e4, isReal_of_all_lt_inf a5 _ _ _ e5,
    isReal_of_all_lt_inf a6 _ _ _ e6⟩

end Cert.Mha

end
-- ==== Proof.lean ====
/-
  Multi-head attention as a Pallas program of five kernel regions (three linear projections, scaled-dot-product
  attention over pairs of heads, the output projection) against its jnp reference, over the extended reals.

  The two programs compute the same projections, scores, row maxima and exponentials; they differ in three spellings:
  the kernel multiplies the scores by 1/8 where the reference divides by 8 (one function on every extended real); the
  reference takes one more maximum with -inf (the identity); and the kernel divides the weighted sum of the value rows
  by the sum of the weights once, where the reference divides each weight first. The last two agree when the sum of
  the weights is a positive real, which holds when the projected queries and keys are real: that is where the
  precondition (every input entry finite) is used. The value rows need no hypothesis.

  What each program's result array holds is read off its run: the reference's through its operations one at a time,
  the kernel program's through the contents its regions and host stretches leave at each boundary of @main.
-/
import proofs.«102316_j51908974739732_2_alg».proof.Defs
import proofs.«102316_j51908974739732_2_alg».proof.Proof.Gen.Kernel
import proofs.«102316_j51908974739732_2_alg».proof.Proof.Gen.Kernel.Skeleton
import proofs.«102316_j51908974739732_2_alg».proof.Proof.Gen.Kernel.Launch
import proofs.«102316_j51908974739732_2_alg».proof.Proof.Gen.Kernel.Points
import proofs.«102316_j51908974739732_2_alg».proof.Proof.Gen.Kernel.Frame
import proofs.«102316_j51908974739732_2_alg».proof.Proof.Gen.KernelIdeal
import proofs.«102316_j51908974739732_2_alg».proof.Proof.Gen.KernelIdeal.Skeleton
import proofs.«102316_j51908974739732_2_alg».proof.Proof.Gen.KernelIdeal.Launch
import proofs.«102316_j51908974739732_2_alg».proof.Proof.Gen.KernelIdeal.Points
import proofs.«102316_j51908974739732_2_alg».proof.Proof.Gen.KernelIdeal.Frame
import proofs.«102316_j51908974739732_2_alg».proof.Proof.Gen.ReferenceIdeal
import proofs.«102316_j51908974739732_2_alg».proof.Proof.Gen.Pre_finite_inputs
import proofs.«102316_j51908974739732_2_alg».proof.Proof.Gen.ReferenceIdeal.Run
import proofs.«102316_j51908974739732_2_alg».proof.Proof.Gen.ReferenceIdeal.Read
import proofs.«102316_j51908974739732_2_alg».proof.Proof.KRun
import proofs.«102316_j51908974739732_2_alg».proof.Proof.Chain
import proofs.«102316_j51908974739732_2_alg».proof.Proof.RefSpec
import proofs.«102316_j51908974739732_2_alg».proof.Proof.Algebra
import proofs.«102316_j51908974739732_2_alg».proof.Proof.Finite
import Idealize.ShloMosaic.Adequacy
import Idealize.ShloMosaic.Init

noncomputable section

namespace Cert.Proof

open Idealize.ShloMosaic Idealize.SL.Sem Cert.Mha

/-- The word-level kernel program runs, faults nowhere and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized program is the printed text read on the extended reals. -/
theorem preserves : Cert.preserves_Kernel_KernelIdeal := trivial

/-- From memories that agree on the seven arguments, all entries finite, both programs end with the result array at
    the kernel's spelling of multi-head attention of the arguments: the kernel program by its run read through @main,
    the reference by its operations read one at a time and the law that moves the division by the sum of the weights
    across the weighted sum. -/
theorem algebraic : Cert.algebraic_KernelIdeal_ReferenceIdeal := by
  intro m ρ m' ρ' hpre hagree
  refine ⟨fun c => mhaK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Val.run_named m ρ)
    exact ⟨(h c).1.trans (Cert.KernelIdeal.Chain.result_eq m ρ c), (h c).2⟩
  · refine (θ_run Cert.ReferenceIdeal.defs _ _).mono (fun r h c => ⟨?_, (h c).2⟩) (Cert.ReferenceIdeal.Value.run (F := Ideal) m' ρ')
    obtain ⟨r0, r1, r2, r3, r4, r5, r6⟩ := Cert.Mha.isReal_of_pre _ _ _ _ _ _ _ (hpre c)
    have e := (h c).1.trans ((Cert.ReferenceIdeal.Read.val_main_v26_eq m' c).trans (Cert.Mha.Ref.ref_eq _ _ _ _ _ _ _))
    rw [(hagree c).1, (hagree c).2.1, (hagree c).2.2.1, (hagree c).2.2.2.1, (hagree c).2.2.2.2.1, (hagree c).2.2.2.2.2.1,
      (hagree c).2.2.2.2.2.2] at e
    exact e.trans (Cert.Mha.mha_eq _ _ _ _ _ _ _ r0 r1 r3 r4).symm

/-- The certificate: the programs' stated side conditions hold (the generated witnesses), the three programs run
    within their frames, the idealization rewrote nothing, and the two idealized programs agree. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
